-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S384x128 : Shape := ⟨2, ![384, 128]⟩
abbrev S384 : Shape := ⟨1, ![384]⟩
abbrev S128x256 : Shape := ⟨2, ![128, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S128x256 : S_.BroadcastsInDim S128x256 (![] : Fin 0 → Fin S128x256.rank)
  reducesTo_S128x256_S_d0_1 : S128x256.ReducesTo [0, 1] S_

variable [Facts]

def fn_part4 {F : FTy → Type} [FloatOps F] (main_arg16 : FVec F S50000x128 .f32) (main_v63 : IVec S_ 1) (main_v67 : IVec S_ 1) : IVec S_ 1 :=
  let main_v68 : IVec S_ 1 := andi main_v63 main_v67
  let main_v69 : FVec F S50000x128 .f32 := Host.absf main_arg16
  let main_cst_26 : FVec F S_ .f32 := constant S_ .f32 0x7F800000#32
  let main_v70 : FVec F S50000x128 .f32 := broadcastInDim S50000x128 ![] bcast_S_S50000x128 main_cst_26
  let main_v71 : IVec S50000x128 1 := cmpf .olt main_v69 main_v70
  let main_c_27 : IVec S_ 1 := constantI S_ 1 1#1
  let main_v72 : IVec S_ 1 := (fun x v => Host.reduce IntOp.andi x v reducesTo_S50000x128_S_d0_1 h_S_) main_v71 main_c_27
  let main_v73 : IVec S_ 1 := andi main_v68 main_v72
  main_v73

def fn_part3 {F : FTy → Type} [FloatOps F] (main_arg13 : FVec F S128 .f32) (main_arg14 : FVec F S128x256 .f32) (main_arg15 : FVec F S128 .f32) (main_arg16 : FVec F S50000x128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x256 .f32 := Host.absf main_arg14
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_v63 main_v67

def fn_part2 {F : FTy → Type} [FloatOps F] (main_arg9 : FVec F S384x128 .f32) (main_arg10 : FVec F S384 .f32) (main_arg11 : FVec F S384 .f32) (main_arg12 : FVec F S128 .f32) (main_arg13 : FVec F S128 .f32) (main_arg14 : FVec F S128x256 .f32) (main_arg15 : FVec F S128 .f32) (main_arg16 : FVec F S50000x128 .f32) (main_v33 : IVec S_ 1) : IVec S_ 1 :=
  let main_v34 : FVec F S384x128 .f32 := Host.absf main_arg9
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S384 .f32 := Host.absf main_arg10
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  let main_v44 : FVec F S384 .f32 := Host.absf main_arg11
  let main_cst_16 : FVec F S_ .f32 := constant S_ .f32 0x7F800000#32
  let main_v45 : FVec F S384 .f32 := broadcastInDim S384 ![] bcast_S_S384 main_cst_16
  let main_v46 : IVec S384 1 := cmpf .olt main_v44 main_v45
  let main_c_17 : IVec S_ 1 := constantI S_ 1 1#1
  let main_v47 : IVec S_ 1 := (fun x v => Host.reduce IntOp.andi x v reducesTo_S384_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128 .f32) (main_arg8 : FVec F S384x128 .f32) (main_arg9 : FVec F S384x128 .f32) (main_arg10 : FVec F S384 .f32) (main_arg11 : FVec F S384 .f32) (main_arg12 : FVec F S128 .f32) (main_arg13 : FVec F S128 .f32) (main_arg14 : FVec F S128x256 .f32) (main_arg15 : FVec F S128 .f32) (main_arg16 : FVec F S50000x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S384x128 .f32 := Host.absf main_arg8
  let main_cst_10 : FVec F S_ .f32 := constant S_ .f32 0x7F800000#32
  let main_v30 : FVec F S384x128 .f32 := broadcastInDim S384x128 ![] bcast_S_S384x128 main_cst_10
  let main_v31 : IVec S384x128 1 := cmpf .olt main_v29 main_v30
  let main_c_11 : IVec S_ 1 := constantI S_ 1 1#1
  let main_v32 : IVec S_ 1 := (fun x v => Host.reduce IntOp.andi x v reducesTo_S384x128_S_d0_1 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x128 .f32) (main_arg1 : IVec S600000 32) (main_arg2 : IVec S600000 32) (main_arg3 : FVec F S600000 .f32) (main_arg4 : FVec F S128x128 .f32) (main_arg5 : FVec F S128 .f32) (main_arg6 : FVec F S128 .f32) (main_arg7 : FVec F S128 .f32) (main_arg8 : FVec F S384x128 .f32) (main_arg9 : FVec F S384x128 .f32) (main_arg10 : FVec F S384 .f32) (main_arg11 : FVec F S384 .f32) (main_arg12 : FVec F S128 .f32) (main_arg13 : FVec F S128 .f32) (main_arg14 : FVec F S128x256 .f32) (main_arg15 : FVec F S128 .f32) (main_arg16 : FVec F S50000x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg3
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S384x128 : Shape := ⟨2, ![384, 128]⟩
abbrev S384 : Shape := ⟨1, ![384]⟩
abbrev S128x256 : Shape := ⟨2, ![128, 256]⟩
abbrev S2000x128 : Shape := ⟨2, ![2000, 128]⟩
abbrev S600000x1 : Shape := ⟨2, ![600000, 1]⟩
abbrev S_ : Shape := ⟨0, ![]⟩
abbrev S600000x128 : Shape := ⟨2, ![600000, 128]⟩
abbrev S128x384 : Shape := ⟨2, ![128, 384]⟩
abbrev S256x128 : Shape := ⟨2, ![256, 128]⟩
abbrev S1x128 : Shape := ⟨2, ![1, 128]⟩
abbrev S1x384 : Shape := ⟨2, ![1, 384]⟩
abbrev S2000 : Shape := ⟨1, ![2000]⟩
abbrev S2000x1 : Shape := ⟨2, ![2000, 1]⟩
abbrev S2000x384 : Shape := ⟨2, ![2000, 384]⟩

abbrev nBuf : Space → Nat
  | .hbm => 48
  | .vmem => 23
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S384x128, .f32⟩
  | .hbm, ⟨9, _⟩ => ⟨S384x128, .f32⟩
  | .hbm, ⟨10, _⟩ => ⟨S384, .f32⟩
  | .hbm, ⟨11, _⟩ => ⟨S384, .f32⟩
  | .hbm, ⟨12, _⟩ => ⟨S128, .f32⟩
  | .hbm, ⟨13, _⟩ => ⟨S128, .f32⟩
  | .hbm, ⟨14, _⟩ => ⟨S128x256, .f32⟩
  | .hbm, ⟨15, _⟩ => ⟨S128, .f32⟩
  | .hbm, ⟨16, _⟩ => ⟨S50000x128, .f32⟩
  | .hbm, ⟨17, _⟩ => ⟨S50000x128, .f32⟩
  | .hbm, ⟨18, _⟩ => ⟨S600000x1, .f32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .f32⟩
  | .hbm, ⟨28, _⟩ => ⟨S600000x128, .f32⟩
  | .hbm, ⟨29, _⟩ => ⟨S600000x128, .f32⟩
  | .hbm, ⟨30, _⟩ => ⟨S_, .f32⟩
  | .hbm, ⟨31, _⟩ => ⟨S50000x128, .f32⟩
  | .hbm, ⟨32, _⟩ => ⟨S600000x1, .i32⟩
  | .hbm, ⟨33, _⟩ => ⟨S50000x128, .f32⟩
  | .hbm, ⟨34, _⟩ => ⟨S128x384, .f32⟩
  | .hbm, ⟨35, _⟩ => ⟨S128x384, .f32⟩
  | .hbm, ⟨36, _⟩ => ⟨S256x128, .f32⟩
  | .hbm, ⟨37, _⟩ => ⟨S128x128, .f32⟩
  | .hbm, ⟨38, _⟩ => ⟨S128x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x384, .f32⟩
  | .hbm, ⟨43, _⟩ => ⟨S1x384, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S128x384, .f32⟩
  | .local _ .vmem, ⟨13, _⟩ => ⟨S128x384, .f32⟩
  | .local _ .vmem, ⟨14, _⟩ => ⟨S1x384, .f32⟩
  | .local _ .vmem, ⟨15, _⟩ => ⟨S1x384, .f32⟩
  | .local _ .vmem, ⟨16, _⟩ => ⟨S1x128, .f32⟩
  | .local _ .vmem, ⟨17, _⟩ => ⟨S1x128, .f32⟩
  | .local _ .vmem, ⟨18, _⟩ => ⟨S128x128, .f32⟩
  | .local _ .vmem, ⟨19, _⟩ => ⟨S128x128, .f32⟩
  | .local _ .vmem, ⟨20, _⟩ => ⟨S1x128, .f32⟩
  | .local _ .vmem, ⟨21, _⟩ => ⟨S2000x128, .f32⟩
  | .local _ .vmem, ⟨22, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg11_0 : Ref sig .tc := ⟨.vmem, 18, rfl⟩
abbrev cc1_stg12_0 : Ref sig .tc := ⟨.vmem, 19, rfl⟩
abbrev cc1_stg13_0 : Ref sig .tc := ⟨.vmem, 20, rfl⟩
abbrev cc1_stg14_0 : Ref sig .tc := ⟨.vmem, 21, rfl⟩
abbrev cc1_stg14_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem13_0 : DmaSem sig := 20
abbrev cc1_sem14_0 : DmaSem sig := 21
abbrev cc1_sem14_1 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x384 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x384 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x384 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S2000x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  transposes_S384x128_S128x384_1_0 : S384x128.Transposes [1, 0] S128x384
  transposes_S128x256_S256x128_1_0 : S128x256.Transposes [1, 0] S256x128
  slices_S256x128_S128x128_0_0 : S256x128.Slices ![0, 0] S128x128
  slices_S256x128_S128x128_128_0 : S256x128.Slices ![128, 0] S128x128
  shapeCasts_S128_S1x128 : S128.ShapeCasts S1x128
  shapeCasts_S384_S1x384 : S384.ShapeCasts S1x384
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  shapeCasts_S128x128_S128x128 : S128x128.ShapeCasts S128x128
  dot_S2000x128_S128x128_S2000x128_1_0_0_1_n_n_wf : DotDims.WF S2000x128 S128x128 S2000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x384_S2000x384_1_0_0_1_n_n_wf : DotDims.WF S2000x128 S128x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x384.size a ≤ S128x384.size a
  hwx1_5 : ∀ i : grid1.Coords, EltTy.bits .f32 = 32 ∨ (Rect.block (s := S128x384) S128x384.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x384.size a ≤ S128x384.size a
  hwx1_6 : ∀ i : grid1.Coords, EltTy.bits .f32 = 32 ∨ (Rect.block (s := S128x384) S128x384.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x384.size a ≤ S1x384.size a
  hwx1_7 : ∀ i : grid1.Coords, EltTy.bits .f32 = 32 ∨ (Rect.block (s := S1x384) S1x384.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x384.size a ≤ S1x384.size a
  hwx1_8 : ∀ i : grid1.Coords, EltTy.bits .f32 = 32 ∨ (Rect.block (s := S1x384) S1x384.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128x128.size a ≤ S128x128.size a
  hwx1_11 : ∀ i : grid1.Coords, EltTy.bits .f32 = 32 ∨ (Rect.block (s := S128x128) S128x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128x128.size a ≤ S128x128.size a
  hwx1_12 : ∀ i : grid1.Coords, EltTy.bits .f32 = 32 ∨ (Rect.block (s := S128x128) S128x128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x128.size a ≤ S1x128.size a
  hwx1_13 : ∀ i : grid1.Coords, EltTy.bits .f32 = 32 ∨ (Rect.block (s := S1x128) S1x128.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S2000x128.size a ≤ S50000x128.size a
  hwx1_14 : ∀ i : grid1.Coords, EltTy.bits .f32 = 32 ∨ (Rect.block (s := S50000x128) S2000x128.size (cc1_transform_14 i) (hinb1_14 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg16) S2000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v14) S128x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S128x384.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v22) S1x384.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v23) S1x384.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v24) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v25) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v17) S128x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v18) S128x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v26) S1x128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v27) S2000x128.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S384x128 : Shape := ⟨2, ![384, 128]⟩
abbrev S384 : Shape := ⟨1, ![384]⟩
abbrev S128x256 : Shape := ⟨2, ![128, 256]⟩
abbrev S600000x1 : Shape := ⟨2, ![600000, 1]⟩
abbrev S_ : Shape := ⟨0, ![]⟩
abbrev S600000x128 : Shape := ⟨2, ![600000, 128]⟩
abbrev S1x128 : Shape := ⟨2, ![1, 128]⟩
abbrev S50000 : Shape := ⟨1, ![50000]⟩
abbrev S50000x1 : Shape := ⟨2, ![50000, 1]⟩
abbrev S128x384 : Shape := ⟨2, ![128, 384]⟩
abbrev S50000x384 : Shape := ⟨2, ![50000, 384]⟩
abbrev S1x384 : Shape := ⟨2, ![1, 384]⟩
abbrev S50000x256 : Shape := ⟨2, ![50000, 256]⟩
abbrev S256x128 : Shape := ⟨2, ![256, 128]⟩

abbrev nBuf : Space → Nat
  | .hbm => 154
  | .vmem => 0
  | .smem => 0
  | _ => 0

abbrev hbmTy0_0 (i : Nat) : BufTy := match i % 128 with
  | 0 => ⟨S50000x128, .f32⟩
  | 1 => ⟨S600000, .i32⟩
  | 2 => ⟨S600000, .i32⟩
  | 3 => ⟨S600000, .f32⟩
  | 4 => ⟨S128x128, .f32⟩
  | 5 => ⟨S128, .f32⟩
  | 6 => ⟨S128, .f32⟩
  | 7 => ⟨S128, .f32⟩
  | 8 => ⟨S384x128, .f32⟩
  | 9 => ⟨S384x128, .f32⟩
  | 10 => ⟨S384, .f32⟩
  | 11 => ⟨S384, .f32⟩
  | 12 => ⟨S128, .f32⟩
  | 13 => ⟨S128, .f32⟩
  | 14 => ⟨S128x256, .f32⟩
  | 15 => ⟨S128, .f32⟩
  | 16 => ⟨S50000x128, .f32⟩
  | 17 => ⟨S50000x128, .f32⟩
  | 18 => ⟨S600000x1, .f32⟩
  | 19 => ⟨S_, .i32⟩
  | 20 => ⟨S600000, .i32⟩
  | 21 => ⟨S600000, .i1⟩
  | 22 => ⟨S_, .i32⟩
  | 23 => ⟨S600000, .i32⟩
  | 24 => ⟨S600000, .i32⟩
  | 25 => ⟨S600000, .i32⟩
  | 26 => ⟨S600000x1, .i32⟩
  | 27 => ⟨S600000x128, .f32⟩
  | 28 => ⟨S600000x128, .f32⟩
  | 29 => ⟨S600000x128, .f32⟩
  | 30 => ⟨S_, .f32⟩
  | 31 => ⟨S50000x128, .f32⟩
  | 32 => ⟨S600000x1, .i32⟩
  | 33 => ⟨S50000x128, .f32⟩
  | 34 => ⟨S1x128, .f32⟩
  | 35 => ⟨S50000x128, .f32⟩
  | 36 => ⟨S50000x128, .f32⟩
  | 37 => ⟨S_, .f32⟩
  | 38 => ⟨S50000x128, .f32⟩
  | 39 => ⟨S50000x128, .f32⟩
  | 40 => ⟨S_, .f32⟩
  | 41 => ⟨S50000, .f32⟩
  | 42 => ⟨S50000x1, .f32⟩
  | 43 => ⟨S_, .f32⟩
  | 44 => ⟨S50000x1, .f32⟩
  | 45 => ⟨S50000x1, .f32⟩
  | 46 => ⟨S50000x128, .f32⟩
  | 47 => ⟨S50000x128, .f32⟩
  | 48 => ⟨S50000x128, .f32⟩
  | 49 => ⟨S_, .f32⟩
  | 50 => ⟨S50000, .f32⟩
  | 51 => ⟨S50000x1, .f32⟩
  | 52 => ⟨S_, .f32⟩
  | 53 => ⟨S50000x1, .f32⟩
  | 54 => ⟨S50000x1, .f32⟩
  | 55 => ⟨S50000x128, .f32⟩
  | 56 => ⟨S50000x128, .f32⟩
  | 57 => ⟨S_, .f32⟩
  | 58 => ⟨S50000x1, .f32⟩
  | 59 => ⟨S50000x1, .f32⟩
  | 60 => ⟨S50000x1, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S128x384, .f32⟩
  | 70 => ⟨S50000x384, .f32⟩
  | 71 => ⟨S1x384, .f32⟩
  | 72 => ⟨S50000x384, .f32⟩
  | 73 => ⟨S50000x384, .f32⟩
  | 74 => ⟨S128x384, .f32⟩
  | 75 => ⟨S50000x384, .f32⟩
  | 76 => ⟨S1x384, .f32⟩
  | 77 => ⟨S50000x384, .f32⟩
  | 78 => ⟨S50000x384, .f32⟩
  | 79 => ⟨S50000x128, .f32⟩
  | 80 => ⟨S50000x128, .f32⟩
  | 81 => ⟨S50000x128, .f32⟩
  | 82 => ⟨S50000x128, .f32⟩
  | 83 => ⟨S50000x128, .f32⟩
  | 84 => ⟨S50000x128, .f32⟩
  | 85 => ⟨S50000x128, .f32⟩
  | 86 => ⟨S50000x128, .f32⟩
  | 87 => ⟨S50000x128, .f32⟩
  | 88 => ⟨S_, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S50000x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S_, .f32⟩
  | 101 => ⟨S50000x128, .f32⟩
  | 102 => ⟨S50000x128, .f32⟩
  | 103 => ⟨S50000x128, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S50000x128, .f32⟩
  | 110 => ⟨S50000x128, .f32⟩
  | 111 => ⟨S50000x128, .f32⟩
  | 112 => ⟨S_, .f32⟩
  | 113 => ⟨S50000, .f32⟩
  | 114 => ⟨S50000x1, .f32⟩
  | 115 => ⟨S_, .f32⟩
  | 116 => ⟨S50000x1, .f32⟩
  | 117 => ⟨S50000x1, .f32⟩
  | 118 => ⟨S50000x128, .f32⟩
  | 119 => ⟨S50000x128, .f32⟩
  | 120 => ⟨S50000x128, .f32⟩
  | 121 => ⟨S_, .f32⟩
  | 122 => ⟨S50000, .f32⟩
  | 123 => ⟨S50000x1, .f32⟩
  | 124 => ⟨S_, .f32⟩
  | 125 => ⟨S50000x1, .f32⟩
  | 126 => ⟨S50000x1, .f32⟩
  | 127 => ⟨S50000x128, .f32⟩
  | _ => ⟨S50000x128, .f32⟩

abbrev hbmTy0_1 (i : Nat) : BufTy := match i % 128 with
  | 0 => ⟨S50000x128, .f32⟩
  | 1 => ⟨S_, .f32⟩
  | 2 => ⟨S50000x1, .f32⟩
  | 3 => ⟨S50000x1, .f32⟩
  | 4 => ⟨S50000x1, .f32⟩
  | 5 => ⟨S50000x128, .f32⟩
  | 6 => ⟨S50000x128, .f32⟩
  | 7 => ⟨S1x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S50000x256, .f32⟩
  | 14 => ⟨S256x128, .f32⟩
  | 15 => ⟨S50000x128, .f32⟩
  | 16 => ⟨S1x128, .f32⟩
  | 17 => ⟨S50000x128, .f32⟩
  | 18 => ⟨S50000x128, .f32⟩
  | 19 => ⟨S_, .f32⟩
  | 20 => ⟨S50000x128, .f32⟩
  | 21 => ⟨S50000x128, .i1⟩
  | 22 => ⟨S_, .f32⟩
  | 23 => ⟨S50000x128, .f32⟩
  | 24 => ⟨S50000x128, .f32⟩
  | 25 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_call0_cst : Ref sig .tc := ⟨.hbm, 37, rfl⟩
abbrev main_call0_v0 : Ref sig .tc := ⟨.hbm, 38, rfl⟩
abbrev main_v17 : Ref sig .tc := ⟨.hbm, 39, rfl⟩
abbrev main_cst_1 : Ref sig .tc := ⟨.hbm, 40, rfl⟩
abbrev main_v18 : Ref sig .tc := ⟨.hbm, 41, rfl⟩
abbrev main_v19 : Ref sig .tc := ⟨.hbm, 42, rfl⟩
abbrev main_cst_2 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_3 : Ref sig .tc := ⟨.hbm, 49, rfl⟩
abbrev main_v25 : Ref sig .tc := ⟨.hbm, 50, rfl⟩
abbrev main_v26 : Ref sig .tc := ⟨.hbm, 51, rfl⟩
abbrev main_cst_4 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_5 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_6 : Ref sig .tc := ⟨.hbm, 88, rfl⟩
abbrev main_v61 : Ref sig .tc := ⟨.hbm, 89, rfl⟩
abbrev main_v62 : Ref sig .tc := ⟨.hbm, 90, rfl⟩
abbrev main_cst_7 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_8 : Ref sig .tc := ⟨.hbm, 97, rfl⟩
abbrev main_v68 : Ref sig .tc := ⟨.hbm, 98, rfl⟩
abbrev main_v69 : Ref sig .tc := ⟨.hbm, 99, rfl⟩
abbrev main_cst_9 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_10 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_11 : Ref sig .tc := ⟨.hbm, 112, rfl⟩
abbrev main_v80 : Ref sig .tc := ⟨.hbm, 113, rfl⟩
abbrev main_v81 : Ref sig .tc := ⟨.hbm, 114, rfl⟩
abbrev main_cst_12 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_13 : Ref sig .tc := ⟨.hbm, 121, rfl⟩
abbrev main_v87 : Ref sig .tc := ⟨.hbm, 122, rfl⟩
abbrev main_v88 : Ref sig .tc := ⟨.hbm, 123, rfl⟩
abbrev main_cst_14 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_15 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_cst_16 : Ref sig .tc := ⟨.hbm, 147, rfl⟩
abbrev main_v110 : Ref sig .tc := ⟨.hbm, 148, rfl⟩
abbrev main_v111 : Ref sig .tc := ⟨.hbm, 149, rfl⟩
abbrev main_cst_17 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩

abbrev nD : Nat := 1
abbrev τ : Topo := Topo.v7x

variable {F : FTy → Type} [FloatOps F]

class Facts₀ : Prop where
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S384x128_S128x384_1_0 : S384x128.Transposes [1, 0] S128x384
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  concatenates_S50000x128_S50000x128_S50000x256_d1 : Shape.Concatenates [S50000x128, S50000x128] S50000x256 1
  transposes_S128x256_S256x128_1_0 : S128x256.Transposes [1, 0] S256x128
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x384_S50000x384_1_0_0_1_n_n_wf : DotDims.WF S50000x128 S128x384 S50000x384 [1] [0] [0] [1] [] []
  dot_S50000x256_S256x128_S50000x128_1_0_0_1_n_n_wf : DotDims.WF S50000x256 S256x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The idealized kernel program's run WITH ITS RESULT NAMED.

  The program is two launches with a stretch of host operations between them. Its buffers at the four boundaries are a
  fold from the launch memory: `W0` the launch contents, `W1` those with the first launch's arrays at what its write-backs
  leave, `W2` the host stretch applied to `W1`, `W3` those with the second launch's arrays at what ITS write-backs leave.
  Every weakly fair execution terminates, faults nowhere, and ends with every unscoped buffer at `W3`: read at the
  arguments this is the frame; read ALSO at the result buffer it says the result is `W3` there, which the value proof
  then opens launch by launch.
-/
import proofs.«145148_j20014547599384_1_alg».proof.Proof.Gen.KernelIdeal.Frame

set_option maxRecDepth 16384

noncomputable section

namespace Cert.GcnGru.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_valued : θ_run defs (onTc (τ := τ) (main (F := F))) ⟨m, fun _ => 0, ρ⟩ (fun r => ∀ c : Dev nD,
      r.2.mem ((c.tc : Thread nD τ).loc main_v27) = W3 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v27 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c),
       (h c _ (mem_uc main_arg12 (by decide))).trans (W3_main_arg12 m ρ c),
       (h c _ (mem_uc main_arg13 (by decide))).trans (W3_main_arg13 m ρ c),
       (h c _ (mem_uc main_arg14 (by decide))).trans (W3_main_arg14 m ρ c),
       (h c _ (mem_uc main_arg15 (by decide))).trans (W3_main_arg15 m ρ c),
       (h c _ (mem_uc main_arg16 (by decide))).trans (W3_main_arg16 m ρ c)⟩)

end Cert.GcnGru.KernelRun

end
-- ==== Proof.Region0.lean ====
/-
  The first launch: `support = x · w`.

  The grid has 25 points; point `t` reads rows `2000·t … 2000·t + 1999` of `x` (all 128 columns) and the whole 128 × 128
  weight, multiplies them into a zero accumulator and writes the product back to the same rows of the output. At the
  extended reals an entry of the product is the sum over the contraction index of the products of the entries (rounding
  the operands to a narrower format is the identity), so what point `t` writes back is block `t` of ONE function of the two
  arrays, `proj x w (r, c) = ∑ k, x (r, k) · w (k, c)`; and the 25 blocks of 2000 rows tile the 50000 rows, so the output
  array ends equal to `proj x w` everywhere.
-/
import proofs.«145148_j20014547599384_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.GcnGru.Region0

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- `x · w` at an index: the sum over the contraction index. -/
def proj (x : S50000x128.Idx → EReal) (w : S128x128.Idx → EReal) : S50000x128.Idx → EReal :=
  fun i => ∑ k : Fin 128, x (ix2 (i 0) k) * w (ix2 k (i 1))

theorem hz : (![0, 0] : Fin 2 → Nat) = fun _ => 0 := funext fun a => by fin_cases a <;> rfl

/-- The row coordinate of the left operand's index is the output's row. -/
theorem lhs0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

/-- The column coordinate of the right operand's index is the output's column. -/
theorem rhs1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's product at an entry of the block: the sum over the contraction index. -/
theorem pay_at (x0 : Vec Ideal S2000x128 .f32) (x1 : Vec Ideal S128x128 .f32) (p : Fin 2000) (q : Fin 128) :
    k0_pay1 (F := Ideal) x0 x1 (ix2 p q) = ∑ k : Fin 128, x0 (ix2 p k) * x1 (ix2 k q) := by
  unfold k0_pay1
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs0 _ _
    | ⟨1, _⟩ => exact (dot_S2000x128_S128x128_S2000x128_1_0_0_1_n_n.lhsIdx_val_of_single rfl _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (dot_S2000x128_S128x128_S2000x128_1_0_0_1_n_n.rhsIdx_val_of_single rfl _ _).trans hk
    | ⟨1, _⟩ => exact rhs1 _ _)
  rw [el, er]
  rfl

/-! ## From the blocks to the array -/

variable (V : (c : Dev nD) → (b : Ref sig .tc) → Buf (Elt Ideal) ((c : Thread nD τ).loc b))

/-- The printed index maps over the grid: the row block of `x` and of the output is the point's number, the weight is
    fetched whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `proj` of the two arrays as the launch finds them. -/
theorem flushed_eq (c : Dev nD) (t : Fin cfg0.N) :
    (dat0 V c).flushed 2 t = ((cfg0.win 2).blk t).view.read (Elt Ideal) (proj (V c main_arg0) (V c main_arg4)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨e00, e01, e10, e11, e20, e21⟩ := idx_facts t
  funext j
  obtain ⟨p, q, rfl⟩ : ∃ (p : Fin 2000) (q : Fin 128), j = ix2 p q := ⟨j 0, j 1, eq_ix2 j⟩
  refine (pay_at _ _ p q).trans ?_
  show _ = proj (V c main_arg0) (V c main_arg4) (((cfg0.win 2).blk t).view.emb (ix2 p q))
  unfold proj
  refine Finset.sum_congr rfl fun k _ => ?_
  have h0 : iblk0 V c 0 t (ix2 p k) = (V c main_arg0 : S50000x128.Idx → EReal) (ix2 ((((cfg0.win 2).blk t).view.emb (ix2 p q)) 0) k) := by
    show (V c main_arg0 : S50000x128.Idx → EReal) (((cfg0.win 0).blk t).view.emb (ix2 p k)) = _
    refine congrArg (V c main_arg0 : S50000x128.Idx → EReal) (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  have h1 : iblk0 V c 1 t (ix2 k q) = (V c main_arg4 : S128x128.Idx → EReal) (ix2 k ((((cfg0.win 2).blk t).view.emb (ix2 p q)) 1)) := by
    show (V c main_arg4 : S128x128.Idx → EReal) (((cfg0.win 1).blk t).view.emb (ix2 k q)) = _
    refine congrArg (V c main_arg4 : S128x128.Idx → EReal) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [h0, h1]

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Row `r` lies in the block of point `r / 2000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  have ht : t.val = (i 0).val / 2000 := rfl
  obtain ⟨e00, e01, e10, e11, e20, e21⟩ := idx_facts t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array after the first launch: `proj` of the two arrays the launch reads. -/
theorem final (c : Dev nD) : (dat0 V c).arrAt 2 cfg0.N = proj (V c main_arg0) (V c main_arg4) :=
  (dat0 V c).arrAt_eq_of_cover 2 _ (fun t _ => flushed_eq V c t) cover

end Cert.GcnGru.Region0

end
-- ==== Proof.RowSpec.lean ====
/-
  The row function both programs compute, over the extended reals.

  One output row depends on ONE row of the aggregated features `a` and ONE row of the hidden state `h0`, and on the
  parameters. In order: `u = max (a + bias) 0`; `xg = LN₁ u` (mean and variance are sums over the 128 features divided by
  128, the normalised row times `rsqrt (var + ε)`, scaled by `g`, shifted by `b`); the two gate pre-activations
  `gi = xg · WihT + bih` and `gh = h0 · WhhT + bhh` (384 columns each: reset, update, candidate); `r = σ(gi_r + gh_r)`,
  `z = σ(gi_z + gh_z)`, `n = tanh (gi_n + r · gh_n)`, `h = (1 − z) · n + z · h0`; `hn = LN₂ h`; and
  `y = hn · Wsh + xg · Wsx + sb`, kept where `y ≥ 0` and scaled by the slope literal elsewhere.
  The weights are taken contraction-index first (`WihT k j`), the form in which the products are summed.
  The only algebra the comparison of the two programs needs is that a sum over 256 indices is the sum over its first
  128 plus the sum over its last 128 (`sum_split256`), which holds in any commutative monoid, so at the infinities too.
-/
import Idealize.ShloMosaic.PureOps.Ideal
import Idealize.ShloMosaic.Lib.ValueIdx

noncomputable section

namespace Cert.GcnGru

open Idealize.ShloMosaic

/-- The literals, as the words both programs print. -/
abbrev zeroL : EReal := Ideal.ofBits .f32 0x00000000#32
abbrev oneL : EReal := Ideal.ofBits .f32 0x3F800000#32
abbrev nL : EReal := Ideal.ofBits .f32 0x43000000#32
abbrev epsL : EReal := Ideal.ofBits .f32 0x3727C5AC#32
abbrev slopeL : EReal := Ideal.ofBits .f32 0x3C23D70A#32

/-- A row's mean: its sum divided by the literal 128. -/
def rowMean (v : Fin 128 → EReal) : EReal := Ideal.div (∑ k : Fin 128, v k) nL

/-- A row's (biased) variance about its mean. -/
def rowVar (v : Fin 128 → EReal) : EReal :=
  Ideal.div (∑ k : Fin 128, (v k - rowMean v) * (v k - rowMean v)) nL

/-- Layer normalisation of a row, scaled by `g` and shifted by `b`. -/
def lnRow (v g b : Fin 128 → EReal) (q : Fin 128) : EReal :=
  (v q - rowMean v) * Ideal.rsqrt (rowVar v + epsL) * g q + b q

/-- The rectified, biased aggregate. -/
def reluRow (a bias : Fin 128 → EReal) (k : Fin 128) : EReal := max (a k + bias k) zeroL

/-- A gate pre-activation: the row times one column of the (transposed) weights, plus the bias. -/
def gate (v : Fin 128 → EReal) (WT : Fin 128 → Fin 384 → EReal) (bv : Fin 384 → EReal) (j : Fin 384) : EReal :=
  (∑ k : Fin 128, v k * WT k j) + bv j

/-- Column `off + q` of the 384 gate columns. -/
abbrev col (off : Nat) (h : off + 128 ≤ 384) (q : Fin 128) : Fin 384 := ⟨off + q.val, by omega⟩

/-- The first and the second half of the 256 skip inputs. -/
abbrev lo (k : Fin 128) : Fin 256 := ⟨k.val, by omega⟩
abbrev hi (k : Fin 128) : Fin 256 := ⟨128 + k.val, by omega⟩

/-- The new hidden row before its normalisation. -/
def gruRow (xg h0 : Fin 128 → EReal) (WihT WhhT : Fin 128 → Fin 384 → EReal) (bih bhh : Fin 384 → EReal)
    (q : Fin 128) : EReal :=
  (oneL - Ideal.logistic (gate xg WihT bih (col 128 (by omega) q) + gate h0 WhhT bhh (col 128 (by omega) q)))
      * Ideal.tanh (gate xg WihT bih (col 256 (by omega) q)
          + Ideal.logistic (gate xg WihT bih (col 0 (by omega) q) + gate h0 WhhT bhh (col 0 (by omega) q))
            * gate h0 WhhT bhh (col 256 (by omega) q))
    + Ideal.logistic (gate xg WihT bih (col 128 (by omega) q) + gate h0 WhhT bhh (col 128 (by omega) q)) * h0 q

/-- The skip layer's pre-activation. -/
def skipRow (hn xg : Fin 128 → EReal) (Wsh Wsx : Fin 128 → Fin 128 → EReal) (sb : Fin 128 → EReal) (q : Fin 128) : EReal :=
  (∑ k : Fin 128, hn k * Wsh k q) + (∑ k : Fin 128, xg k * Wsx k q) + sb q

/-- The leaky rectifier. -/
def leaky (y : EReal) : EReal := Scalar.select (Ideal.cmp .oge y zeroL) y (slopeL * y)

/-- One output row, entry `q`. -/
def outRow (a h0 bias g1 b1 : Fin 128 → EReal) (WihT WhhT : Fin 128 → Fin 384 → EReal) (bih bhh : Fin 384 → EReal)
    (g2 b2 : Fin 128 → EReal) (Wsh Wsx : Fin 128 → Fin 128 → EReal) (sb : Fin 128 → EReal) (q : Fin 128) : EReal :=
  leaky (skipRow (lnRow (gruRow (lnRow (reluRow a bias) g1 b1) h0 WihT WhhT bih bhh) g2 b2)
    (lnRow (reluRow a bias) g1 b1) Wsh Wsx sb q)

/-- A sum over 256 indices is the sum over the first 128 plus the sum over the last 128. -/
theorem sum_split256 {M : Type*} [AddCommMonoid M] (f : Fin 256 → M) :
    ∑ k : Fin 256, f k = (∑ k : Fin 128, f (lo k)) + ∑ k : Fin 128, f (hi k) := by
  have h := Fin.sum_univ_add (M := M) (a := 128) (b := 128) f
  refine h.trans ?_
  refine congrArg₂ (· + ·) (Finset.sum_congr rfl fun k _ => congrArg f (Fin.ext ?_))
    (Finset.sum_congr rfl fun k _ => congrArg f (Fin.ext ?_)) <;> rfl

end Cert.GcnGru

end
-- ==== Proof.KernelRow.lean ====
/-
  The second kernel body read at one index.

  The body leaves in its output block the payload of whole-block loads. Read at row `p` and column `q`, the payload is
  the row function `outRow` of row `p` of the aggregated-feature block and of the hidden-state block and of the
  parameter blocks. The steps: a lane sum at a row is the `Fin 128` sum of that row; the keepdims forms
  `[2000] → [2000, 1] → [2000, 128]` read a row's scalar; a product with a `[128, n]` matrix at `(p, j)` is the sum over
  the contraction index of row `p` times column `j`; a column slice of the 384 gate columns at offset `o` reads column
  `o + q`; a truncation of an extended real is the identity; every other operation is pointwise.
-/
import proofs.«145148_j20014547599384_1_alg».proof.Proof.Gen.KernelIdeal.Frame
import proofs.«145148_j20014547599384_1_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.GcnGru.KernelRow

open Idealize.ShloMosaic Idealize.ShloMosaic.ValueIdx Cert.KernelIdeal Cert.KernelIdeal.Gen

/-! ## The block read through whole rectangles -/

/-- The whole rectangle's offsets are zero. -/
theorem hz : (![0, 0] : Fin 2 → Nat) = fun _ => 0 := funext fun a => by fin_cases a <;> rfl

/-- The output block is the payload of the input blocks. -/
theorem out1_eq (x0 : Vec Ideal S2000x128 .f32) (x1 x2 x3 : Vec Ideal S1x128 .f32) (x4 : Vec Ideal S2000x128 .f32)
    (x5 x6 : Vec Ideal S128x384 .f32) (x7 x8 : Vec Ideal S1x384 .f32) (x9 x10 : Vec Ideal S1x128 .f32)
    (x11 x12 : Vec Ideal S128x128 .f32) (x13 : Vec Ideal S1x128 .f32) :
    out1_14 (F := Ideal) x0 x1 x2 x3 x4 x5 x6 x7 x8 x9 x10 x11 x12 x13
      = k1_pay1 (k1_pay2 x0 x1 x2 x3)
          (k1_pay7 x4 (k1_pay2 x0 x1 x2 x3) (k1_pay3 x4) (k1_pay4 x5) x6 x7 x8)
          (k1_pay8 x4 (k1_pay2 x0 x1 x2 x3) (k1_pay3 x4) (k1_pay4 x5) x6 x7 x8) x9 x10 x11 x12 x13 := by
  unfold out1_14
  rw [View.canon_unit_zero hz]
  simp only [View.ld_unit_zero (S := S2000x128) hz, View.ld_unit_zero (S := S1x128) hz,
    View.ld_unit_zero (S := S128x384) hz, View.ld_unit_zero (S := S1x384) hz, View.ld_unit_zero (S := S128x128) hz]

/-! ## Lane sums and the keepdims forms -/

/-- A lane sum at row `p` is the sum of row `p`. -/
theorem rowSum_at (src : FVec Ideal S2000x128 .f32) (hφ : FKind.Formats .f32)
    (hacc : (0x00000000#32 : BitVec 32) = 0x00000000#32) (p : Fin 2000) :
    multiReduction (F := Ideal) .add [1] S2000 src 0x00000000#32 reduces_S2000x128_S2000 hφ hacc (ix1 p)
      = ∑ k : Fin 128, src (ix2 p k) := by
  refine (Ideal.multiReduction_add_single src 0x00000000#32 reduces_S2000x128_S2000 hφ hacc (ix1 p)).trans ?_
  refine Finset.sum_congr rfl fun k _ => congrArg src (funext fun c => Fin.ext ?_)
  match c with
  | ⟨0, _⟩ => rfl
  | ⟨1, _⟩ => rfl

/-- A `[2000]` array cast to `[2000, 1]` reads, at `(p, u)`, the operand at `p`. -/
theorem shapeCast_a_a1_apply {α : Type} (x : S2000.Idx → α) (h : S2000.ShapeCasts S2000x1) (p : Fin 2000) (u : Fin 1) :
    shapeCast S2000x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A `[2000, 1]` column broadcast to `[2000, 128]` reads, at `(p, q)`, the column at `p`. -/
theorem broadcastTo_a1_ab_apply {α : Type} (v : S2000x1.Idx → α) (h : S2000x1.Broadcasts S2000x128) (p : Fin 2000) (q : Fin 128) :
    broadcastTo S2000x128 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-! ## The products -/

/-- The left operand's index of the `[2000, 128] × [128, 128]` product: row from the result, column from the contraction. -/
theorem lhsA_0 (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem rhsA_1 (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A product with a `[128, 128]` matrix into the zero splat, at `(p, q)`: row `p` times column `q`. -/
theorem matmulA_at {φ₁ φ₂ : FTy} (l : FVec Ideal S2000x128 φ₁) (r : FVec Ideal S128x128 φ₂) (p : Fin 2000) (q : Fin 128) :
    matmul (F := Ideal) dot_S2000x128_S128x128_S2000x128_1_0_0_1_n_n none l r (constant S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  refine (Equiv.sum_comp (contrEquiv1 dot_S2000x128_S128x128_S2000x128_1_0_0_1_n_n 128 rfl rfl).symm _).symm.trans ?_
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhsA_0 _ _
    | ⟨1, _⟩ => exact (dot_S2000x128_S128x128_S2000x128_1_0_0_1_n_n.lhsIdx_val_of_single rfl _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (dot_S2000x128_S128x128_S2000x128_1_0_0_1_n_n.rhsIdx_val_of_single rfl _ _).trans hk
    | ⟨1, _⟩ => exact rhsA_1 _ _)
  rw [el, er]

/-- The same indices for the `[2000, 128] × [128, 384]` product. -/
theorem lhsB_0 (i : S2000x384.Idx) (c : dot_S2000x128_S128x384_S2000x384_1_0_0_1_n_n.contr.Idx) :
    (dot_S2000x128_S128x384_S2000x384_1_0_0_1_n_n.lhsIdx i c 0).val = (i 0).val := by
  unfold DotDims.lhsIdx
  rw [dif_neg (show ¬(0 : Fin S2000x128.rank) ∈ dot_S2000x128_S128x384_S2000x384_1_0_0_1_n_n.lhsBatch by decide), dif_pos (show (0 : Fin S2000x128.rank) ∈ dot_S2000x128_S128x384_S2000x384_1_0_0_1_n_n.lhsNonContracting by decide)]
  rfl
theorem rhsB_1 (i : S2000x384.Idx) (c : dot_S2000x128_S128x384_S2000x384_1_0_0_1_n_n.contr.Idx) :
    (dot_S2000x128_S128x384_S2000x384_1_0_0_1_n_n.rhsIdx i c 1).val = (i 1).val := by
  unfold DotDims.rhsIdx
  rw [dif_neg (show ¬(1 : Fin S128x384.rank) ∈ dot_S2000x128_S128x384_S2000x384_1_0_0_1_n_n.rhsBatch by decide), dif_pos (show (1 : Fin S128x384.rank) ∈ dot_S2000x128_S128x384_S2000x384_1_0_0_1_n_n.rhsNonContracting by decide)]
  rfl

/-- A product with a `[128, 384]` matrix into the zero splat, at `(p, j)`: row `p` times column `j`. -/
theorem matmulB_at {φ₁ φ₂ : FTy} (l : FVec Ideal S2000x128 φ₁) (r : FVec Ideal S128x384 φ₂) (p : Fin 2000) (j : Fin 384) :
    matmul (F := Ideal) dot_S2000x128_S128x384_S2000x384_1_0_0_1_n_n none l r (constant S2000x384 .f32 0x00000000#32) (ix2 p j)
      = ∑ k : Fin 128, l (ix2 p k) * r (ix2 k j) := by
  refine (Ideal.matmul_constant_zero_apply dot_S2000x128_S128x384_S2000x384_1_0_0_1_n_n none l r (ix2 p j)).trans ?_
  refine (Equiv.sum_comp (contrEquiv1 dot_S2000x128_S128x384_S2000x384_1_0_0_1_n_n 128 rfl rfl).symm _).symm.trans ?_
  refine Finset.sum_congr rfl fun k _ => ?_
  have hk := contrEquiv1_symm_val dot_S2000x128_S128x384_S2000x384_1_0_0_1_n_n 128 rfl rfl k
  have el : dot_S2000x128_S128x384_S2000x384_1_0_0_1_n_n.lhsIdx (ix2 p j) ((contrEquiv1 dot_S2000x128_S128x384_S2000x384_1_0_0_1_n_n 128 rfl rfl).symm k) = ix2 p k := funext fun a => Fin.ext (by
    match a with
    | ⟨0, _⟩ => exact lhsB_0 _ _
    | ⟨1, _⟩ => exact (dot_S2000x128_S128x384_S2000x384_1_0_0_1_n_n.lhsIdx_val_of_single rfl _ _).trans hk)
  have er : dot_S2000x128_S128x384_S2000x384_1_0_0_1_n_n.rhsIdx (ix2 p j) ((contrEquiv1 dot_S2000x128_S128x384_S2000x384_1_0_0_1_n_n 128 rfl rfl).symm k) = ix2 k j := funext fun a => Fin.ext (by
    match a with
    | ⟨0, _⟩ => exact (dot_S2000x128_S128x384_S2000x384_1_0_0_1_n_n.rhsIdx_val_of_single rfl _ _).trans hk
    | ⟨1, _⟩ => exact rhsB_1 _ _)
  rw [el, er]

/-! ## Layer normalisation of a block's rows -/

/-- The column of row means: the lane sums, as a column, divided by the literal 128. -/
def meanCol (w : FVec Ideal S2000x128 .f32) : FVec Ideal S2000x1 .f32 :=
  divf (shapeCast S2000x1 (multiReduction (F := Ideal) .add [1] S2000 w 0x00000000#32 reduces_S2000x128_S2000 (.inl rfl) rfl) shapeCasts_S2000_S2000x1)
    (broadcast S2000x1 (Scalar.ofBits (F := Ideal) .f32 0x43000000#32))

/-- The rows less their means. -/
def centered (w : FVec Ideal S2000x128 .f32) : FVec Ideal S2000x128 .f32 :=
  subf w (broadcastTo S2000x128 (meanCol w) broadcasts_S2000x1_S2000x128)

/-- The column of reciprocal standard deviations. -/
def rstdCol (w : FVec Ideal S2000x128 .f32) : FVec Ideal S2000x1 .f32 :=
  rsqrt (addf
    (divf (shapeCast S2000x1 (multiReduction (F := Ideal) .add [1] S2000 (mulf (centered w) (centered w)) 0x00000000#32 reduces_S2000x128_S2000 (.inl rfl) rfl) shapeCasts_S2000_S2000x1)
      (broadcast S2000x1 (Scalar.ofBits (F := Ideal) .f32 0x43000000#32)))
    (broadcast S2000x1 (Scalar.ofBits (F := Ideal) .f32 0x3727C5AC#32)))

/-- Centred rows times a column, scaled by one row and shifted by another. -/
def lnArr (c : FVec Ideal S2000x128 .f32) (r : FVec Ideal S2000x1 .f32) (g b : Vec Ideal S1x128 .f32) : FVec Ideal S2000x128 .f32 :=
  addf (mulf (mulf c (broadcastTo S2000x128 r broadcasts_S2000x1_S2000x128))
      (broadcastTo S2000x128 (shapeCast S1x128 g shapeCasts_S1x128_S1x128) broadcasts_S1x128_S2000x128))
    (broadcastTo S2000x128 (shapeCast S1x128 b shapeCasts_S1x128_S1x128) broadcasts_S1x128_S2000x128)

theorem meanCol_at (w : FVec Ideal S2000x128 .f32) (p : Fin 2000) (u : Fin 1) :
    meanCol w (ix2 p u) = rowMean (fun k => w (ix2 p k)) := by
  unfold meanCol rowMean
  show Ideal.div (shapeCast S2000x1 _ shapeCasts_S2000_S2000x1 (ix2 p u)) nL = _
  rw [shapeCast_a_a1_apply, rowSum_at]

theorem centered_at (w : FVec Ideal S2000x128 .f32) (p : Fin 2000) (q : Fin 128) :
    centered w (ix2 p q) = w (ix2 p q) - rowMean (fun k => w (ix2 p k)) := by
  unfold centered
  show w (ix2 p q) - broadcastTo S2000x128 (meanCol w) broadcasts_S2000x1_S2000x128 (ix2 p q) = _
  rw [broadcastTo_a1_ab_apply, meanCol_at]

theorem rstdCol_at (w : FVec Ideal S2000x128 .f32) (p : Fin 2000) (u : Fin 1) :
    rstdCol w (ix2 p u) = Ideal.rsqrt (rowVar (fun k => w (ix2 p k)) + epsL) := by
  unfold rstdCol rowVar
  show Ideal.rsqrt (Ideal.div (shapeCast S2000x1 _ shapeCasts_S2000_S2000x1 (ix2 p u)) nL + epsL) = _
  rw [shapeCast_a_a1_apply, rowSum_at]
  have e : ∀ k : Fin 128, mulf (centered w) (centered w) (ix2 p k)
      = (w (ix2 p k) - rowMean fun k => w (ix2 p k)) * (w (ix2 p k) - rowMean fun k => w (ix2 p k)) := fun k => by
    show centered w (ix2 p k) * centered w (ix2 p k) = _
    rw [centered_at]
  rw [Finset.sum_congr rfl fun k _ => e k]

/-- The layer normalisation of the rows of `w`, read at `(p, q)`, is entry `q` of the layer normalisation of row `p`. -/
theorem lnArr_at (w : FVec Ideal S2000x128 .f32) (g b : Vec Ideal S1x128 .f32) (p : Fin 2000) (q : Fin 128) :
    lnArr (centered w) (rstdCol w) g b (ix2 p q)
      = lnRow (fun k => w (ix2 p k)) (fun k => g (ix2 0 k)) (fun k => b (ix2 0 k)) q := by
  unfold lnArr lnRow
  show centered w (ix2 p q) * broadcastTo S2000x128 (rstdCol w) broadcasts_S2000x1_S2000x128 (ix2 p q)
      * broadcastTo S2000x128 (shapeCast S1x128 g shapeCasts_S1x128_S1x128) broadcasts_S1x128_S2000x128 (ix2 p q)
      + broadcastTo S2000x128 (shapeCast S1x128 b shapeCasts_S1x128_S1x128) broadcasts_S1x128_S2000x128 (ix2 p q) = _
  rw [broadcastTo_a1_ab_apply, broadcastTo_1b_ab_apply, broadcastTo_1b_ab_apply, shapeCast_self, shapeCast_self,
    centered_at, rstdCol_at]

/-! ## The first normalised rows -/

/-- The rectified, biased aggregate block. -/
def reluArr (x0 : Vec Ideal S2000x128 .f32) (x1 : Vec Ideal S1x128 .f32) : FVec Ideal S2000x128 .f32 :=
  maximumf (addf (shapeCast S2000x128 x0 shapeCasts_S2000x128_S2000x128)
      (broadcastTo S2000x128 (shapeCast S1x128 x1 shapeCasts_S1x128_S1x128) broadcasts_S1x128_S2000x128))
    (broadcast S2000x128 (Scalar.ofBits (F := Ideal) .f32 0x00000000#32))

theorem reluArr_at (x0 : Vec Ideal S2000x128 .f32) (x1 : Vec Ideal S1x128 .f32) (p : Fin 2000) (k : Fin 128) :
    reluArr x0 x1 (ix2 p k) = reluRow (fun k => x0 (ix2 p k)) (fun k => x1 (ix2 0 k)) k := by
  unfold reluArr reluRow
  show max (shapeCast S2000x128 x0 shapeCasts_S2000x128_S2000x128 (ix2 p k)
      + broadcastTo S2000x128 (shapeCast S1x128 x1 shapeCasts_S1x128_S1x128) broadcasts_S1x128_S2000x128 (ix2 p k)) zeroL = _
  rw [broadcastTo_1b_ab_apply, shapeCast_self, shapeCast_self]

/-- The first payload is the normalisation of the rectified block, truncated. -/
theorem pay2_eq (x0 : Vec Ideal S2000x128 .f32) (x1 x2 x3 : Vec Ideal S1x128 .f32) :
    k1_pay2 (F := Ideal) x0 x1 x2 x3
      = truncf .bf16 (lnArr (centered (reluArr x0 x1)) (rstdCol (reluArr x0 x1)) x2 x3) bitsLt_bf16_f32 := rfl

/-- The first payload at `(p, q)`: the normalised, rectified row. -/
theorem xg_at (x0 : Vec Ideal S2000x128 .f32) (x1 x2 x3 : Vec Ideal S1x128 .f32) (p : Fin 2000) (q : Fin 128) :
    k1_pay2 (F := Ideal) x0 x1 x2 x3 (ix2 p q)
      = lnRow (reluRow (fun k => x0 (ix2 p k)) (fun k => x1 (ix2 0 k))) (fun k => x2 (ix2 0 k)) (fun k => x3 (ix2 0 k)) q := by
  rw [pay2_eq]
  show lnArr (centered (reluArr x0 x1)) (rstdCol (reluArr x0 x1)) x2 x3 (ix2 p q) = _
  rw [lnArr_at]
  exact congrArg (fun v => lnRow v (fun k => x2 (ix2 0 k)) (fun k => x3 (ix2 0 k)) q) (funext fun k => reluArr_at x0 x1 p k)

/-! ## The gates and the new hidden rows -/

/-- A gate pre-activation block: rows times a `[128, 384]` matrix, plus a bias row. -/
def gateArr (v : FVec Ideal S2000x128 .bf16) (W : FVec Ideal S128x384 .bf16) (bv : Vec Ideal S1x384 .f32) : FVec Ideal S2000x384 .f32 :=
  addf (matmul (F := Ideal) dot_S2000x128_S128x384_S2000x384_1_0_0_1_n_n none v W (constant S2000x384 .f32 0x00000000#32))
    (broadcastTo S2000x384 (shapeCast S1x384 bv shapeCasts_S1x384_S1x384) broadcasts_S1x384_S2000x384)

theorem gateArr_at (v : FVec Ideal S2000x128 .bf16) (W : FVec Ideal S128x384 .bf16) (bv : Vec Ideal S1x384 .f32)
    (p : Fin 2000) (j : Fin 384) :
    gateArr v W bv (ix2 p j) = gate (fun k => v (ix2 p k)) (fun k j => W (ix2 k j)) (fun j => bv (ix2 0 j)) j := by
  unfold gateArr gate
  show matmul (F := Ideal) dot_S2000x128_S128x384_S2000x384_1_0_0_1_n_n none v W (constant S2000x384 .f32 0x00000000#32) (ix2 p j)
      + broadcastTo S2000x384 (shapeCast S1x384 bv shapeCasts_S1x384_S1x384) broadcasts_S1x384_S2000x384 (ix2 p j) = _
  rw [matmulB_at, broadcastTo_1b_ab_apply, shapeCast_self]

/-- The new hidden rows from the two gate blocks: reset and update gates from the first two column groups, the
    candidate from the third. -/
def gruArr (h0 : Vec Ideal S2000x128 .f32) (gi gh : FVec Ideal S2000x384 .f32) : FVec Ideal S2000x128 .f32 :=
  addf
    (mulf
      (subf (broadcast S2000x128 (Scalar.ofBits (F := Ideal) .f32 0x3F800000#32))
        (logistic (addf (extractStridedSlice S2000x128 ![0, 128] gi slices_S2000x384_o0_128_S2000x128)
          (extractStridedSlice S2000x128 ![0, 128] gh slices_S2000x384_o0_128_S2000x128))))
      (tanh (addf (extractStridedSlice S2000x128 ![0, 256] gi slices_S2000x384_o0_256_S2000x128)
        (mulf
          (logistic (addf (extractStridedSlice S2000x128 ![0, 0] gi slices_S2000x384_o0_0_S2000x128)
            (extractStridedSlice S2000x128 ![0, 0] gh slices_S2000x384_o0_0_S2000x128)))
          (extractStridedSlice S2000x128 ![0, 256] gh slices_S2000x384_o0_256_S2000x128)))))
    (mulf
      (logistic (addf (extractStridedSlice S2000x128 ![0, 128] gi slices_S2000x384_o0_128_S2000x128)
        (extractStridedSlice S2000x128 ![0, 128] gh slices_S2000x384_o0_128_S2000x128)))
      h0)

theorem gruArr_at (h0 : Vec Ideal S2000x128 .f32) (gi gh : FVec Ideal S2000x384 .f32) (p : Fin 2000) (q : Fin 128) :
    gruArr h0 gi gh (ix2 p q)
      = (oneL - Ideal.logistic (gi (ix2 p (col 128 (by omega) q)) + gh (ix2 p (col 128 (by omega) q))))
          * Ideal.tanh (gi (ix2 p (col 256 (by omega) q))
              + Ideal.logistic (gi (ix2 p (col 0 (by omega) q)) + gh (ix2 p (col 0 (by omega) q)))
                * gh (ix2 p (col 256 (by omega) q)))
        + Ideal.logistic (gi (ix2 p (col 128 (by omega) q)) + gh (ix2 p (col 128 (by omega) q))) * h0 (ix2 p q) := by
  have s : ∀ (off : Nat) (hoff : off + 128 ≤ 384) (hs : S2000x384.Slices ![0, off] S2000x128) (X : FVec Ideal S2000x384 .f32),
      extractStridedSlice S2000x128 ![0, off] X hs (ix2 p q) = X (ix2 p (col off hoff q)) :=
    fun off hoff hs X => slice2_axis1_apply off X hs p q _ rfl
  unfold gruArr
  show (oneL - Ideal.logistic (extractStridedSlice S2000x128 ![0, 128] gi slices_S2000x384_o0_128_S2000x128 (ix2 p q)
            + extractStridedSlice S2000x128 ![0, 128] gh slices_S2000x384_o0_128_S2000x128 (ix2 p q)))
        * Ideal.tanh (extractStridedSlice S2000x128 ![0, 256] gi slices_S2000x384_o0_256_S2000x128 (ix2 p q)
            + Ideal.logistic (extractStridedSlice S2000x128 ![0, 0] gi slices_S2000x384_o0_0_S2000x128 (ix2 p q)
                + extractStridedSlice S2000x128 ![0, 0] gh slices_S2000x384_o0_0_S2000x128 (ix2 p q))
              * extractStridedSlice S2000x128 ![0, 256] gh slices_S2000x384_o0_256_S2000x128 (ix2 p q))
      + Ideal.logistic (extractStridedSlice S2000x128 ![0, 128] gi slices_S2000x384_o0_128_S2000x128 (ix2 p q)
            + extractStridedSlice S2000x128 ![0, 128] gh slices_S2000x384_o0_128_S2000x128 (ix2 p q)) * h0 (ix2 p q) = _
  rw [s 128 (by omega) _ gi, s 128 (by omega) _ gh, s 256 (by omega) _ gi, s 256 (by omega) _ gh,
    s 0 (by omega) _ gi, s 0 (by omega) _ gh]

/-- The weight payload is the truncated weight block. -/
theorem pay4_eq (x5 : Vec Ideal S128x384 .f32) : k1_pay4 (F := Ideal) x5 = truncf .bf16 x5 bitsLt_bf16_f32 := by
  unfold k1_pay4
  rw [shapeCast_self]

/-- The recurrent payload is the new hidden rows of the two gate blocks. -/
theorem pay5_eq (v34 : Vec Ideal S2000x128 .f32) (v35 v36 : FVec Ideal S2000x128 .bf16) (v39 : FVec Ideal S128x384 .bf16)
    (v40 : Vec Ideal S128x384 .f32) (v44 v49 : Vec Ideal S1x384 .f32) :
    k1_pay5 (F := Ideal) v34 v35 v36 v39 v40 v44 v49
      = gruArr v34 (gateArr v35 v39 v44)
          (gateArr v36 (truncf .bf16 (shapeCast S128x384 v40 shapeCasts_S128x384_S128x384) bitsLt_bf16_f32) v49) := rfl

/-- The recurrent payload at `(p, q)`: the new hidden row. -/
theorem pay5_at (v34 : Vec Ideal S2000x128 .f32) (v35 : FVec Ideal S2000x128 .bf16) (x5 x6 : Vec Ideal S128x384 .f32)
    (x7 x8 : Vec Ideal S1x384 .f32) (p : Fin 2000) (q : Fin 128) :
    k1_pay5 (F := Ideal) v34 v35 (k1_pay3 v34) (k1_pay4 x5) x6 x7 x8 (ix2 p q)
      = gruRow (fun k => v35 (ix2 p k)) (fun k => v34 (ix2 p k)) (fun k j => x5 (ix2 k j)) (fun k j => x6 (ix2 k j))
          (fun j => x7 (ix2 0 j)) (fun j => x8 (ix2 0 j)) q := by
  rw [pay5_eq, pay4_eq, shapeCast_self, gruArr_at]
  simp only [gateArr_at]
  rfl

/-! ## The second normalisation, the skip layer and the leaky rectifier -/

/-- The centred recurrent payload. -/
theorem pay7_eq (v34 : Vec Ideal S2000x128 .f32) (v35 v36 : FVec Ideal S2000x128 .bf16) (v39 : FVec Ideal S128x384 .bf16)
    (v40 : Vec Ideal S128x384 .f32) (v44 v49 : Vec Ideal S1x384 .f32) :
    k1_pay7 (F := Ideal) v34 v35 v36 v39 v40 v44 v49 = centered (k1_pay5 v34 v35 v36 v39 v40 v44 v49) := rfl

/-- Its column of reciprocal standard deviations. -/
theorem pay8_eq (v34 : Vec Ideal S2000x128 .f32) (v35 v36 : FVec Ideal S2000x128 .bf16) (v39 : FVec Ideal S128x384 .bf16)
    (v40 : Vec Ideal S128x384 .f32) (v44 v49 : Vec Ideal S1x384 .f32) :
    k1_pay8 (F := Ideal) v34 v35 v36 v39 v40 v44 v49 = rstdCol (k1_pay5 v34 v35 v36 v39 v40 v44 v49) := rfl

/-- The skip layer's pre-activation block: the normalised hidden rows times one half of the weights, plus the first
    normalised rows times the other half, plus the bias row. -/
def skipArr (hn : FVec Ideal S2000x128 .f32) (xg : FVec Ideal S2000x128 .bf16) (W1 W2 : Vec Ideal S128x128 .f32)
    (sb : Vec Ideal S1x128 .f32) : FVec Ideal S2000x128 .f32 :=
  addf
    (addf
      (matmul (F := Ideal) dot_S2000x128_S128x128_S2000x128_1_0_0_1_n_n none (truncf .bf16 hn bitsLt_bf16_f32)
        (truncf .bf16 (shapeCast S128x128 W1 shapeCasts_S128x128_S128x128) bitsLt_bf16_f32) (constant S2000x128 .f32 0x00000000#32))
      (matmul (F := Ideal) dot_S2000x128_S128x128_S2000x128_1_0_0_1_n_n none xg
        (truncf .bf16 (shapeCast S128x128 W2 shapeCasts_S128x128_S128x128) bitsLt_bf16_f32) (constant S2000x128 .f32 0x00000000#32)))
    (broadcastTo S2000x128 (shapeCast S1x128 sb shapeCasts_S1x128_S1x128) broadcasts_S1x128_S2000x128)

theorem skipArr_at (hn : FVec Ideal S2000x128 .f32) (xg : FVec Ideal S2000x128 .bf16) (W1 W2 : Vec Ideal S128x128 .f32)
    (sb : Vec Ideal S1x128 .f32) (p : Fin 2000) (q : Fin 128) :
    skipArr hn xg W1 W2 sb (ix2 p q)
      = skipRow (fun k => hn (ix2 p k)) (fun k => xg (ix2 p k)) (fun k j => W1 (ix2 k j)) (fun k j => W2 (ix2 k j))
          (fun j => sb (ix2 0 j)) q := by
  unfold skipArr skipRow
  show matmul (F := Ideal) dot_S2000x128_S128x128_S2000x128_1_0_0_1_n_n none (truncf .bf16 hn bitsLt_bf16_f32)
        (truncf .bf16 (shapeCast S128x128 W1 shapeCasts_S128x128_S128x128) bitsLt_bf16_f32) (constant S2000x128 .f32 0x00000000#32) (ix2 p q)
      + matmul (F := Ideal) dot_S2000x128_S128x128_S2000x128_1_0_0_1_n_n none xg
        (truncf .bf16 (shapeCast S128x128 W2 shapeCasts_S128x128_S128x128) bitsLt_bf16_f32) (constant S2000x128 .f32 0x00000000#32) (ix2 p q)
      + broadcastTo S2000x128 (shapeCast S1x128 sb shapeCasts_S1x128_S1x128) broadcasts_S1x128_S2000x128 (ix2 p q) = _
  rw [matmulA_at, matmulA_at, broadcastTo_1b_ab_apply, shapeCast_self, shapeCast_self, shapeCast_self]
  rfl

/-- The leaky rectifier of a block. -/
def leakyArr (y : FVec Ideal S2000x128 .f32) : FVec Ideal S2000x128 .f32 :=
  select (cmpf .oge y (broadcast S2000x128 (Scalar.ofBits (F := Ideal) .f32 0x00000000#32))) y
    (mulf (broadcast S2000x128 (Scalar.ofBits (F := Ideal) .f32 0x3C23D70A#32)) y)

theorem leakyArr_at (y : FVec Ideal S2000x128 .f32) (i : S2000x128.Idx) : leakyArr y i = leaky (y i) := rfl

/-- The last payload: the leaky rectifier of the skip layer of the normalised rows. -/
theorem pay1_eq (v35 : FVec Ideal S2000x128 .bf16) (v83 : FVec Ideal S2000x128 .f32) (v86 : FVec Ideal S2000x1 .f32)
    (v89 v93 : Vec Ideal S1x128 .f32) (v98 v101 : Vec Ideal S128x128 .f32) (v107 : Vec Ideal S1x128 .f32) :
    k1_pay1 (F := Ideal) v35 v83 v86 v89 v93 v98 v101 v107
      = leakyArr (skipArr (lnArr v83 v86 v89 v93) v35 v98 v101 v107) := rfl

/-! ## The output block at an index -/

/-- The block the second body leaves, at row `p` and column `q`, is the row function of row `p` of the two
    row blocks and of the parameter blocks. -/
theorem out1_at (x0 : Vec Ideal S2000x128 .f32) (x1 x2 x3 : Vec Ideal S1x128 .f32) (x4 : Vec Ideal S2000x128 .f32)
    (x5 x6 : Vec Ideal S128x384 .f32) (x7 x8 : Vec Ideal S1x384 .f32) (x9 x10 : Vec Ideal S1x128 .f32)
    (x11 x12 : Vec Ideal S128x128 .f32) (x13 : Vec Ideal S1x128 .f32) (p : Fin 2000) (q : Fin 128) :
    out1_14 (F := Ideal) x0 x1 x2 x3 x4 x5 x6 x7 x8 x9 x10 x11 x12 x13 (ix2 p q)
      = outRow (fun k => x0 (ix2 p k)) (fun k => x4 (ix2 p k))
          (fun k => x1 (ix2 0 k)) (fun k => x2 (ix2 0 k)) (fun k => x3 (ix2 0 k))
          (fun k j => x5 (ix2 k j)) (fun k j => x6 (ix2 k j)) (fun j => x7 (ix2 0 j)) (fun j => x8 (ix2 0 j))
          (fun k => x9 (ix2 0 k)) (fun k => x10 (ix2 0 k))
          (fun k j => x11 (ix2 k j)) (fun k j => x12 (ix2 k j)) (fun j => x13 (ix2 0 j)) q := by
  have exg : (fun k => k1_pay2 (F := Ideal) x0 x1 x2 x3 (ix2 p k))
      = lnRow (reluRow (fun k => x0 (ix2 p k)) (fun k => x1 (ix2 0 k))) (fun k => x2 (ix2 0 k)) (fun k => x3 (ix2 0 k)) :=
    funext fun k => xg_at x0 x1 x2 x3 p k
  have eh : (fun k => k1_pay5 (F := Ideal) x4 (k1_pay2 x0 x1 x2 x3) (k1_pay3 x4) (k1_pay4 x5) x6 x7 x8 (ix2 p k))
      = gruRow (lnRow (reluRow (fun k => x0 (ix2 p k)) (fun k => x1 (ix2 0 k))) (fun k => x2 (ix2 0 k)) (fun k => x3 (ix2 0 k)))
          (fun k => x4 (ix2 p k)) (fun k j => x5 (ix2 k j)) (fun k j => x6 (ix2 k j)) (fun j => x7 (ix2 0 j)) (fun j => x8 (ix2 0 j)) :=
    funext fun k => by rw [pay5_at, exg]
  have ehn : (fun k => lnArr (centered (k1_pay5 (F := Ideal) x4 (k1_pay2 x0 x1 x2 x3) (k1_pay3 x4) (k1_pay4 x5) x6 x7 x8))
        (rstdCol (k1_pay5 (F := Ideal) x4 (k1_pay2 x0 x1 x2 x3) (k1_pay3 x4) (k1_pay4 x5) x6 x7 x8)) x9 x10 (ix2 p k))
      = lnRow (gruRow (lnRow (reluRow (fun k => x0 (ix2 p k)) (fun k => x1 (ix2 0 k))) (fun k => x2 (ix2 0 k)) (fun k => x3 (ix2 0 k)))
          (fun k => x4 (ix2 p k)) (fun k j => x5 (ix2 k j)) (fun k j => x6 (ix2 k j)) (fun j => x7 (ix2 0 j)) (fun j => x8 (ix2 0 j)))
          (fun k => x9 (ix2 0 k)) (fun k => x10 (ix2 0 k)) :=
    funext fun k => by rw [lnArr_at, eh]
  rw [out1_eq, pay1_eq, pay7_eq, pay8_eq, leakyArr_at, skipArr_at, ehn, exg]
  rfl

end Cert.GcnGru.KernelRow

end
-- ==== Proof.Region1.lean ====
/-
  The second launch: bias, rectifier, layer norm, the gated recurrent cell, layer norm, the skip layer, the leaky rectifier.

  The grid has 25 points; point `t` reads rows `2000·t … 2000·t + 1999` of the aggregated features and of the hidden state
  (all 128 columns) and each parameter array whole, and writes rows `2000·t … 2000·t + 1999` of the output. Every output
  row is a function of the same row of the two row-blocked inputs and of the parameters (`outRow`), so what point `t`
  writes back is block `t` of ONE function `rowsOut` of the fifteen arrays as the launch finds them; the 25 blocks tile the
  50000 rows, so the output array ends equal to `rowsOut` everywhere.
-/
import proofs.«145148_j20014547599384_1_alg».proof.Proof.Gen.KernelIdeal.Frame
import proofs.«145148_j20014547599384_1_alg».proof.Proof.RowSpec
import proofs.«145148_j20014547599384_1_alg».proof.Proof.KernelRow
import Idealize.ShloMosaic.Lib.Pipeline.Value
import Idealize.ShloMosaic.Lib.ValueIdx

set_option maxRecDepth 16384

noncomputable section

namespace Cert.GcnGru.Region1

open Cert.KernelIdeal Cert.KernelIdeal.Gen Cert.GcnGru
open Idealize.ShloMosaic Idealize.ShloMosaic.TcCoe Idealize.SL.Sem Idealize.ShloMosaic.ValueIdx
open Idealize.ShloMosaic.Pipeline (Dat Cfg Window)

/-- The output array as one function of the launch's fourteen input arrays: row `i 0` of the two row-blocked arrays and the
    parameters, through `outRow`, at column `i 1`. -/
def rowsOut (A0 : S50000x128.Idx → EReal) (A1 : S1x128.Idx → EReal) (A2 : S1x128.Idx → EReal) (A3 : S1x128.Idx → EReal) (A4 : S50000x128.Idx → EReal) (A5 : S128x384.Idx → EReal) (A6 : S128x384.Idx → EReal) (A7 : S1x384.Idx → EReal) (A8 : S1x384.Idx → EReal) (A9 : S1x128.Idx → EReal) (A10 : S1x128.Idx → EReal) (A11 : S128x128.Idx → EReal) (A12 : S128x128.Idx → EReal) (A13 : S1x128.Idx → EReal) : S50000x128.Idx → EReal :=
  fun i => outRow
      (fun k => A0 (ix2 (i 0) k))
      (fun k => A4 (ix2 (i 0) k))
      (fun k => A1 (ix2 0 k))
      (fun k => A2 (ix2 0 k))
      (fun k => A3 (ix2 0 k))
      (fun k j => A5 (ix2 k j))
      (fun k j => A6 (ix2 k j))
      (fun k => A7 (ix2 0 k))
      (fun k => A8 (ix2 0 k))
      (fun k => A9 (ix2 0 k))
      (fun k => A10 (ix2 0 k))
      (fun k j => A11 (ix2 k j))
      (fun k j => A12 (ix2 k j))
      (fun k => A13 (ix2 0 k)) (i 1)

open Cert.GcnGru.KernelRow (out1_at)

/-- `outRow` respects equality of each of its arguments. -/
theorem outRow_congr {a a' h0 h0' bias bias' g1 g1' b1 b1' : Fin 128 → EReal} {WihT WihT' WhhT WhhT' : Fin 128 → Fin 384 → EReal}
    {bih bih' bhh bhh' : Fin 384 → EReal} {g2 g2' b2 b2' : Fin 128 → EReal} {Wsh Wsh' Wsx Wsx' : Fin 128 → Fin 128 → EReal}
    {sb sb' : Fin 128 → EReal} {q q' : Fin 128}
    (e0 : a = a') (e1 : h0 = h0') (e2 : bias = bias') (e3 : g1 = g1') (e4 : b1 = b1') (e5 : WihT = WihT') (e6 : WhhT = WhhT')
    (e7 : bih = bih') (e8 : bhh = bhh') (e9 : g2 = g2') (e10 : b2 = b2') (e11 : Wsh = Wsh') (e12 : Wsx = Wsx') (e13 : sb = sb')
    (eq : q = q') :
    outRow a h0 bias g1 b1 WihT WhhT bih bhh g2 b2 Wsh Wsx sb q = outRow a' h0' bias' g1' b1' WihT' WhhT' bih' bhh' g2' b2' Wsh' Wsx' sb' q' := by
  rw [e0, e1, e2, e3, e4, e5, e6, e7, e8, e9, e10, e11, e12, e13, eq]

variable (V : (c : Dev nD) → (b : Ref sig .tc) → Buf (Elt Ideal) ((c : Thread nD τ).loc b))

/-- The printed index maps over the grid: the row block of the two row-blocked inputs and of the output is the point's
    number; every parameter array is fetched whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = 0 ∧ win1_11.index t (1 : Fin 2) = 0
    ∧ win1_12.index t (0 : Fin 2) = 0 ∧ win1_12.index t (1 : Fin 2) = 0
    ∧ win1_13.index t (0 : Fin 2) = 0 ∧ win1_13.index t (1 : Fin 2) = 0
    ∧ win1_14.index t (0 : Fin 2) = t.val ∧ win1_14.index t (1 : Fin 2) = 0 :=
  (by decide +kernel : ∀ t : Fin grid1.N, _)

set_option maxHeartbeats 2000000 in
/-- What point `t` writes back is block `t` of `rowsOut` of the arrays as the launch finds them. -/
theorem flushed_eq (c : Dev nD) (t : Fin cfg1.N) :
    (dat1 V c).flushed 14 t = ((cfg1.win 14).blk t).view.read (Elt Ideal)
      (rowsOut (V c main_v13) (V c main_v19) (V c main_v20) (V c main_v21) (V c main_arg16) (V c main_v14) (V c main_v15) (V c main_v22) (V c main_v23) (V c main_v24) (V c main_v25) (V c main_v17) (V c main_v18) (V c main_v26)) := by
  show (cfg1.win 14).cut (grid1.coords t) ((dat1 V c).after 14 t) = _
  rw [after1_14]
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b⟩ := idx_facts t
  funext j
  obtain ⟨p, q, rfl⟩ : ∃ (p : Fin 2000) (q : Fin 128), j = ix2 p q := ⟨j 0, j 1, eq_ix2 j⟩
  refine (out1_at (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) p q).trans ?_
  show _ = rowsOut (V c main_v13) (V c main_v19) (V c main_v20) (V c main_v21) (V c main_arg16) (V c main_v14) (V c main_v15) (V c main_v22) (V c main_v23) (V c main_v24) (V c main_v25) (V c main_v17) (V c main_v18) (V c main_v26) (((cfg1.win 14).blk t).view.emb (ix2 p q))
  unfold rowsOut
  have h0 : (fun k => iblk1 V c 0 t (ix2 p k)) = (fun k => (V c main_v13 : S50000x128.Idx → EReal) (ix2 ((((cfg1.win 14).blk t).view.emb (ix2 p q)) 0) k)) := funext fun k => by
    show (V c main_v13 : S50000x128.Idx → EReal) (((cfg1.win 0).blk t).view.emb (ix2 p k)) = _
    refine congrArg (V c main_v13 : S50000x128.Idx → EReal) (funext fun a => Fin.ext ?_)
    match a with
    | ⟨0, _⟩ => show win1_0.index t (0 : Fin 2) * 2000 + 1 * p.val = win1_14.index t (0 : Fin 2) * 2000 + 1 * p.val; omega
    | ⟨1, _⟩ => show win1_0.index t (1 : Fin 2) * 128 + 1 * k.val = k.val; omega
  have h1 : (fun k => iblk1 V c 1 t (ix2 0 k)) = (fun k => (V c main_v19 : S1x128.Idx → EReal) (ix2 0 k)) := funext fun k => by
    show (V c main_v19 : S1x128.Idx → EReal) (((cfg1.win 1).blk t).view.emb (ix2 0 k)) = _
    refine congrArg (V c main_v19 : S1x128.Idx → EReal) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  have h2 : (fun k => iblk1 V c 2 t (ix2 0 k)) = (fun k => (V c main_v20 : S1x128.Idx → EReal) (ix2 0 k)) := funext fun k => by
    show (V c main_v20 : S1x128.Idx → EReal) (((cfg1.win 2).blk t).view.emb (ix2 0 k)) = _
    refine congrArg (V c main_v20 : S1x128.Idx → EReal) (funext fun a => Fin.ext ?_)
    match a with
    | ⟨0, _⟩ => show win1_2.index t (0 : Fin 2) * 1 + 1 * 0 = 0; omega
    | ⟨1, _⟩ => show win1_2.index t (1 : Fin 2) * 128 + 1 * k.val = k.val; omega
  have h3 : (fun k => iblk1 V c 3 t (ix2 0 k)) = (fun k => (V c main_v21 : S1x128.Idx → EReal) (ix2 0 k)) := funext fun k => by
    show (V c main_v21 : S1x128.Idx → EReal) (((cfg1.win 3).blk t).view.emb (ix2 0 k)) = _
    refine congrArg (V c main_v21 : S1x128.Idx → EReal) (funext fun a => Fin.ext ?_)
    match a with
    | ⟨0, _⟩ => show win1_3.index t (0 : Fin 2) * 1 + 1 * 0 = 0; omega
    | ⟨1, _⟩ => show win1_3.index t (1 : Fin 2) * 128 + 1 * k.val = k.val; omega
  have h4 : (fun k => iblk1 V c 4 t (ix2 p k)) = (fun k => (V c main_arg16 : S50000x128.Idx → EReal) (ix2 ((((cfg1.win 14).blk t).view.emb (ix2 p q)) 0) k)) := funext fun k => by
    show (V c main_arg16 : S50000x128.Idx → EReal) (((cfg1.win 4).blk t).view.emb (ix2 p k)) = _
    refine congrArg (V c main_arg16 : S50000x128.Idx → EReal) (funext fun a => Fin.ext ?_)
    match a with
    | ⟨0, _⟩ => show win1_4.index t (0 : Fin 2) * 2000 + 1 * p.val = win1_14.index t (0 : Fin 2) * 2000 + 1 * p.val; omega
    | ⟨1, _⟩ => show win1_4.index t (1 : Fin 2) * 128 + 1 * k.val = k.val; omega
  have h5 : (fun k j => iblk1 V c 5 t (ix2 k j)) = (fun k j => (V c main_v14 : S128x384.Idx → EReal) (ix2 k j)) := funext fun k => funext fun j => by
    show (V c main_v14 : S128x384.Idx → EReal) (((cfg1.win 5).blk t).view.emb (ix2 k j)) = _
    refine congrArg (V c main_v14 : S128x384.Idx → EReal) (funext fun a => Fin.ext ?_)
    match a with
    | ⟨0, _⟩ => show win1_5.index t (0 : Fin 2) * 128 + 1 * k.val = k.val; omega
    | ⟨1, _⟩ => show win1_5.index t (1 : Fin 2) * 384 + 1 * j.val = j.val; omega
  have h6 : (fun k j => iblk1 V c 6 t (ix2 k j)) = (fun k j => (V c main_v15 : S128x384.Idx → EReal) (ix2 k j)) := funext fun k => funext fun j => by
    show (V c main_v15 : S128x384.Idx → EReal) (((cfg1.win 6).blk t).view.emb (ix2 k j)) = _
    refine congrArg (V c main_v15 : S128x384.Idx → EReal) (funext fun a => Fin.ext ?_)
    match a with
    | ⟨0, _⟩ => show win1_6.index t (0 : Fin 2) * 128 + 1 * k.val = k.val; omega
    | ⟨1, _⟩ => show win1_6.index t (1 : Fin 2) * 384 + 1 * j.val = j.val; omega
  have h7 : (fun k => iblk1 V c 7 t (ix2 0 k)) = (fun k => (V c main_v22 : S1x384.Idx → EReal) (ix2 0 k)) := funext fun k => by
    show (V c main_v22 : S1x384.Idx → EReal) (((cfg1.win 7).blk t).view.emb (ix2 0 k)) = _
    refine congrArg (V c main_v22 : S1x384.Idx → EReal) (funext fun a => Fin.ext ?_)
    match a with
    | ⟨0, _⟩ => show win1_7.index t (0 : Fin 2) * 1 + 1 * 0 = 0; omega
    | ⟨1, _⟩ => show win1_7.index t (1 : Fin 2) * 384 + 1 * k.val = k.val; omega
  have h8 : (fun k => iblk1 V c 8 t (ix2 0 k)) = (fun k => (V c main_v23 : S1x384.Idx → EReal) (ix2 0 k)) := funext fun k => by
    show (V c main_v23 : S1x384.Idx → EReal) (((cfg1.win 8).blk t).view.emb (ix2 0 k)) = _
    refine congrArg (V c main_v23 : S1x384.Idx → EReal) (funext fun a => Fin.ext ?_)
    match a with
    | ⟨0, _⟩ => show win1_8.index t (0 : Fin 2) * 1 + 1 * 0 = 0; omega
    | ⟨1, _⟩ => show win1_8.index t (1 : Fin 2) * 384 + 1 * k.val = k.val; omega
  have h9 : (fun k => iblk1 V c 9 t (ix2 0 k)) = (fun k => (V c main_v24 : S1x128.Idx → EReal) (ix2 0 k)) := funext fun k => by
    show (V c main_v24 : S1x128.Idx → EReal) (((cfg1.win 9).blk t).view.emb (ix2 0 k)) = _
    refine congrArg (V c main_v24 : S1x128.Idx → EReal) (funext fun a => Fin.ext ?_)
    match a with
    | ⟨0, _⟩ => show win1_9.index t (0 : Fin 2) * 1 + 1 * 0 = 0; omega
    | ⟨1, _⟩ => show win1_9.index t (1 : Fin 2) * 128 + 1 * k.val = k.val; omega
  have h10 : (fun k => iblk1 V c 10 t (ix2 0 k)) = (fun k => (V c main_v25 : S1x128.Idx → EReal) (ix2 0 k)) := funext fun k => by
    show (V c main_v25 : S1x128.Idx → EReal) (((cfg1.win 10).blk t).view.emb (ix2 0 k)) = _
    refine congrArg (V c main_v25 : S1x128.Idx → EReal) (funext fun a => Fin.ext ?_)
    match a with
    | ⟨0, _⟩ => show win1_10.index t (0 : Fin 2) * 1 + 1 * 0 = 0; omega
    | ⟨1, _⟩ => show win1_10.index t (1 : Fin 2) * 128 + 1 * k.val = k.val; omega
  have h11 : (fun k j => iblk1 V c 11 t (ix2 k j)) = (fun k j => (V c main_v17 : S128x128.Idx → EReal) (ix2 k j)) := funext fun k => funext fun j => by
    show (V c main_v17 : S128x128.Idx → EReal) (((cfg1.win 11).blk t).view.emb (ix2 k j)) = _
    refine congrArg (V c main_v17 : S128x128.Idx → EReal) (funext fun a => Fin.ext ?_)
    match a with
    | ⟨0, _⟩ => show win1_11.index t (0 : Fin 2) * 128 + 1 * k.val = k.val; omega
    | ⟨1, _⟩ => show win1_11.index t (1 : Fin 2) * 128 + 1 * j.val = j.val; omega
  have h12 : (fun k j => iblk1 V c 12 t (ix2 k j)) = (fun k j => (V c main_v18 : S128x128.Idx → EReal) (ix2 k j)) := funext fun k => funext fun j => by
    show (V c main_v18 : S128x128.Idx → EReal) (((cfg1.win 12).blk t).view.emb (ix2 k j)) = _
    refine congrArg (V c main_v18 : S128x128.Idx → EReal) (funext fun a => Fin.ext ?_)
    match a with
    | ⟨0, _⟩ => show win1_12.index t (0 : Fin 2) * 128 + 1 * k.val = k.val; omega
    | ⟨1, _⟩ => show win1_12.index t (1 : Fin 2) * 128 + 1 * j.val = j.val; omega
  have h13 : (fun k => iblk1 V c 13 t (ix2 0 k)) = (fun k => (V c main_v26 : S1x128.Idx → EReal) (ix2 0 k)) := funext fun k => by
    show (V c main_v26 : S1x128.Idx → EReal) (((cfg1.win 13).blk t).view.emb (ix2 0 k)) = _
    refine congrArg (V c main_v26 : S1x128.Idx → EReal) (funext fun a => Fin.ext ?_)
    match a with
    | ⟨0, _⟩ => show win1_13.index t (0 : Fin 2) * 1 + 1 * 0 = 0; omega
    | ⟨1, _⟩ => show win1_13.index t (1 : Fin 2) * 128 + 1 * k.val = k.val; omega
  have hq : q = (((cfg1.win 14).blk t).view.emb (ix2 p q)) 1 := Fin.ext (by
    show q.val = win1_14.index t (1 : Fin 2) * 128 + 1 * q.val; omega)
  exact outRow_congr h0 h4 h1 h2 h3 h5 h6 h7 h8 h9 h10 h11 h12 h13 hq

/-- An index of the array is in point `t`'s block iff each coordinate is in the block's range on its axis. -/
theorem mem_blk (t : Fin cfg1.N) (i : S50000x128.Idx) :
    i ∈ ((cfg1.win 14).blk t).view.set ↔ ∀ a : Fin 2, win1_14.index t a * S2000x128.size a ≤ (i a).val ∧ (i a).val < win1_14.index t a * S2000x128.size a + S2000x128.size a := by
  show i ∈ ((View.whole main_v27).slice (win1_14.rect t)).set ↔ _
  rw [View.set_slice_whole, Rect.mem_set_unit]
  exact Iff.rfl

/-- Row `r` lies in the block of point `r / 2000`. -/
theorem cover (i : S50000x128.Idx) : ∃ t : Fin cfg1.N, (cfg1.win 14).flush t = true ∧ i ∈ ((cfg1.win 14).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  have ht : t.val = (i 0).val / 2000 := rfl
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b⟩ := idx_facts t
  refine ⟨t, flush1_14 t, ?_⟩
  rw [mem_blk]
  intro a
  match a with
  | ⟨0, _⟩ => show win1_14.index t (0 : Fin 2) * 2000 ≤ (i 0).val ∧ (i 0).val < win1_14.index t (0 : Fin 2) * 2000 + 2000; omega
  | ⟨1, _⟩ => show win1_14.index t (1 : Fin 2) * 128 ≤ (i 1).val ∧ (i 1).val < win1_14.index t (1 : Fin 2) * 128 + 128; omega

/-- The output array after the second launch. -/
theorem final (c : Dev nD) : (dat1 V c).arrAt 14 cfg1.N = rowsOut (V c main_v13) (V c main_v19) (V c main_v20) (V c main_v21) (V c main_arg16) (V c main_v14) (V c main_v15) (V c main_v22) (V c main_v23) (V c main_v24) (V c main_v25) (V c main_v17) (V c main_v18) (V c main_v26) :=
  (dat1 V c).arrAt_eq_of_cover 14 _ (fun t _ => flushed_eq V c t) cover

end Cert.GcnGru.Region1

end
-- ==== Proof.HostMid.lean ====
/-
  The host operations between the two launches, read back.

  Between the launches the program gathers rows of the projected features by the (wrapped) column indices, scales them by
  the edge values and adds them into the rows named by the row indices (`aggOf`: the same chain of operations the
  reference applies, kept as ONE function of the projected features and the three edge arrays, never opened); transposes the
  two gate weights and the skip weight, cuts the transposed skip weight into its first and last 128 rows, and gives each
  vector parameter a leading unit axis. Each array the second launch reads is therefore one of these functions of the buffers
  as the first launch leaves them, and read at an index: a vector parameter's entry `(0, k)` is its entry `k`; a transposed
  weight's entry `(k, j)` is the weight's entry `(j, k)`; the two halves of the transposed skip weight at `(k, j)` are the skip
  weight at `(j, k)` and at `(j, 128 + k)`.
-/
import proofs.«145148_j20014547599384_1_alg».proof.Proof.Gen.KernelIdeal.Frame
import proofs.«145148_j20014547599384_1_alg».proof.Proof.RowSpec
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.GcnGru.HostMid

open Cert.KernelIdeal Cert.KernelIdeal.Gen Cert.GcnGru
open Idealize.ShloMosaic Idealize.ShloMosaic.TcCoe Idealize.SL.Sem Idealize.ShloMosaic.StableHlo Idealize.ShloMosaic.ValueIdx

/-- The aggregation: gather the rows of `sup` named by the column indices (a negative index wrapped by 50000), scale row
    `e` by `ev e`, and add the scaled rows into the rows named by the row indices, from zero. -/
def aggOf (sup : FVec Ideal S50000x128 .f32) (erow ecol : IVec S600000 32) (ev : FVec Ideal S600000 .f32) :
    FVec Ideal S50000x128 .f32 :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 erow)
    (mulf
      (broadcastInDim S600000x128 ![0, 1] bcast_S600000x1_S600000x128_0_1
        (broadcastInDim S600000x1 ![0] bcast_S600000_S600000x1_0 ev))
      (Host.gather gather_S50000x128_S600000x1_S600000x128_1_0_n_n_0_1_1128 sup
        (broadcastInDim S600000x1 ![0] bcast_S600000_S600000x1_0
          (select
            (cmpi CmpIPredicate.slt ecol (broadcastInDim S600000 ![] bcast_S_S600000 (constantI S_ 32 0#32)))
            (addi ecol (broadcastInDim S600000 ![] bcast_S_S600000 (constantI S_ 32 50000#32)))
            ecol))))

variable (W : Valuation τ sig (Elt Ideal))

/-! ## Each array of the second launch after the host stretch -/

theorem mid_v13 : StableHlo.after hostOps1 W (Proc.devRef .tc main_v13)
    = aggOf (W (Proc.devRef .tc main_v0)) (W (Proc.devRef .tc main_arg1)) (W (Proc.devRef .tc main_arg2)) (W (Proc.devRef .tc main_arg3)) := by
  unfold aggOf
  after_results
theorem mid_v19 : StableHlo.after hostOps1 W (Proc.devRef .tc main_v19)
    = shapeCast S1x128 (W (Proc.devRef .tc main_arg5) : (⟨S128, .f32⟩ : BufTy).Contents (Elt Ideal)) shapeCasts_S128_S1x128 := by
  after_results; funext i; rfl
theorem mid_v20 : StableHlo.after hostOps1 W (Proc.devRef .tc main_v20)
    = shapeCast S1x128 (W (Proc.devRef .tc main_arg6) : (⟨S128, .f32⟩ : BufTy).Contents (Elt Ideal)) shapeCasts_S128_S1x128 := by
  after_results; funext i; rfl
theorem mid_v21 : StableHlo.after hostOps1 W (Proc.devRef .tc main_v21)
    = shapeCast S1x128 (W (Proc.devRef .tc main_arg7) : (⟨S128, .f32⟩ : BufTy).Contents (Elt Ideal)) shapeCasts_S128_S1x128 := by
  after_results; funext i; rfl
theorem mid_v22 : StableHlo.after hostOps1 W (Proc.devRef .tc main_v22)
    = shapeCast S1x384 (W (Proc.devRef .tc main_arg10) : (⟨S384, .f32⟩ : BufTy).Contents (Elt Ideal)) shapeCasts_S384_S1x384 := by
  after_results; funext i; rfl
theorem mid_v23 : StableHlo.after hostOps1 W (Proc.devRef .tc main_v23)
    = shapeCast S1x384 (W (Proc.devRef .tc main_arg11) : (⟨S384, .f32⟩ : BufTy).Contents (Elt Ideal)) shapeCasts_S384_S1x384 := by
  after_results; funext i; rfl
theorem mid_v24 : StableHlo.after hostOps1 W (Proc.devRef .tc main_v24)
    = shapeCast S1x128 (W (Proc.devRef .tc main_arg12) : (⟨S128, .f32⟩ : BufTy).Contents (Elt Ideal)) shapeCasts_S128_S1x128 := by
  after_results; funext i; rfl
theorem mid_v25 : StableHlo.after hostOps1 W (Proc.devRef .tc main_v25)
    = shapeCast S1x128 (W (Proc.devRef .tc main_arg13) : (⟨S128, .f32⟩ : BufTy).Contents (Elt Ideal)) shapeCasts_S128_S1x128 := by
  after_results; funext i; rfl
theorem mid_v26 : StableHlo.after hostOps1 W (Proc.devRef .tc main_v26)
    = shapeCast S1x128 (W (Proc.devRef .tc main_arg15) : (⟨S128, .f32⟩ : BufTy).Contents (Elt Ideal)) shapeCasts_S128_S1x128 := by
  after_results; funext i; rfl
theorem mid_arg16 : StableHlo.after hostOps1 W (Proc.devRef .tc main_arg16) = W (Proc.devRef .tc main_arg16) := by
  after_results
theorem mid_v14 : StableHlo.after hostOps1 W (Proc.devRef .tc main_v14)
    = transpose S128x384 [1, 0] (W (Proc.devRef .tc main_arg8) : (⟨S384x128, .f32⟩ : BufTy).Contents (Elt Ideal)) transposes_S384x128_S128x384_1_0 := by
  after_results
theorem mid_v15 : StableHlo.after hostOps1 W (Proc.devRef .tc main_v15)
    = transpose S128x384 [1, 0] (W (Proc.devRef .tc main_arg9) : (⟨S384x128, .f32⟩ : BufTy).Contents (Elt Ideal)) transposes_S384x128_S128x384_1_0 := by
  after_results
theorem mid_v17 : StableHlo.after hostOps1 W (Proc.devRef .tc main_v17)
    = extractStridedSlice S128x128 ![0, 0] (transpose S256x128 [1, 0] (W (Proc.devRef .tc main_arg14) : (⟨S128x256, .f32⟩ : BufTy).Contents (Elt Ideal)) transposes_S128x256_S256x128_1_0) slices_S256x128_S128x128_0_0 := by
  after_results
theorem mid_v18 : StableHlo.after hostOps1 W (Proc.devRef .tc main_v18)
    = extractStridedSlice S128x128 ![128, 0] (transpose S256x128 [1, 0] (W (Proc.devRef .tc main_arg14) : (⟨S128x256, .f32⟩ : BufTy).Contents (Elt Ideal)) transposes_S128x256_S256x128_1_0) slices_S256x128_S128x128_128_0 := by
  after_results

/-! ## The layout operations read at an index -/

/-- A vector given a leading unit axis: entry `(0, k)` is entry `k`. -/
theorem row128 (x : S128.Idx → EReal) (k : Fin 128) : shapeCast S1x128 x shapeCasts_S128_S1x128 (ix2 0 k) = x (ix1 k) :=
  (shapeCast_addUnit_apply ![128] x shapeCasts_S128_S1x128 (ix2 0 k)).trans
    (congrArg x (funext fun a => by match a with | ⟨0, _⟩ => rfl))

theorem row384 (x : S384.Idx → EReal) (k : Fin 384) : shapeCast S1x384 x shapeCasts_S384_S1x384 (ix2 0 k) = x (ix1 k) :=
  (shapeCast_addUnit_apply ![384] x shapeCasts_S384_S1x384 (ix2 0 k)).trans
    (congrArg x (funext fun a => by match a with | ⟨0, _⟩ => rfl))

/-- A transposed gate weight: entry `(k, j)` is the weight's entry `(j, k)`. -/
theorem gateT (x : S384x128.Idx → EReal) (k : Fin 128) (j : Fin 384) :
    transpose S128x384 [1, 0] x transposes_S384x128_S128x384_1_0 (ix2 k j) = x (ix2 j k) :=
  transpose_apply [1, 0] x transposes_S384x128_S128x384_1_0 (ix2 k j) (ix2 j k)
    (fun b => by match b with | ⟨0, _⟩ => rfl | ⟨1, _⟩ => rfl)

/-- The first 128 rows of the transposed skip weight: entry `(k, j)` is the skip weight's entry `(j, k)`. -/
theorem skipLo (x : S128x256.Idx → EReal) (k j : Fin 128) :
    extractStridedSlice S128x128 ![0, 0] (transpose S256x128 [1, 0] x transposes_S128x256_S256x128_1_0) slices_S256x128_S128x128_0_0 (ix2 k j)
      = x (ix2 j (lo k)) :=
  (extractStridedSlice_apply ![0, 0] _ slices_S256x128_S128x128_0_0 (ix2 k j) (ix2 (lo k) j)
    (fun a => by match a with | ⟨0, _⟩ => show k.val = 0 + k.val; omega | ⟨1, _⟩ => show j.val = 0 + j.val; omega)).trans
  (transpose_apply [1, 0] x transposes_S128x256_S256x128_1_0 (ix2 (lo k) j) (ix2 j (lo k))
    (fun b => by match b with | ⟨0, _⟩ => rfl | ⟨1, _⟩ => rfl))

/-- The last 128 rows: entry `(k, j)` is the skip weight's entry `(j, 128 + k)`. -/
theorem skipHi (x : S128x256.Idx → EReal) (k j : Fin 128) :
    extractStridedSlice S128x128 ![128, 0] (transpose S256x128 [1, 0] x transposes_S128x256_S256x128_1_0) slices_S256x128_S128x128_128_0 (ix2 k j)
      = x (ix2 j (hi k)) :=
  (extractStridedSlice_apply ![128, 0] _ slices_S256x128_S128x128_128_0 (ix2 k j) (ix2 (hi k) j)
    (fun a => by match a with | ⟨0, _⟩ => show 128 + k.val = 128 + k.val; rfl | ⟨1, _⟩ => show j.val = 0 + j.val; omega)).trans
  (transpose_apply [1, 0] x transposes_S128x256_S256x128_1_0 (ix2 (hi k) j) (ix2 j (hi k))
    (fun b => by match b with | ⟨0, _⟩ => rfl | ⟨1, _⟩ => rfl))

end Cert.GcnGru.HostMid

end
-- ==== Proof.KernelValue.lean ====
/-
  What the idealized kernel program's result buffer holds after the run, as ONE function of the seventeen argument arrays.

  The second launch's output array is `rowsOut` of its fourteen input arrays as it finds them; each of those is a host
  operation's result or an untouched argument; the aggregated features are the aggregation `aggOf` of the first launch's
  output, which is `proj` of the node features and the projection weight. Composing these readings gives `kernelOut`.
-/
import proofs.«145148_j20014547599384_1_alg».proof.Proof.Region0
import proofs.«145148_j20014547599384_1_alg».proof.Proof.Region1
import proofs.«145148_j20014547599384_1_alg».proof.Proof.HostMid

set_option maxRecDepth 16384

noncomputable section

namespace Cert.GcnGru.KernelValue

open Cert.KernelIdeal Cert.KernelIdeal.Gen Cert.GcnGru
open Idealize.ShloMosaic Idealize.ShloMosaic.TcCoe Idealize.SL.Sem Idealize.ShloMosaic.StableHlo Idealize.ShloMosaic.ValueIdx

/-- The kernel program's result as a function of its arguments. -/
def kernelOut (x0 : (⟨S50000x128, .f32⟩ : BufTy).Contents (Elt Ideal)) (x1 x2 : (⟨S600000, .i32⟩ : BufTy).Contents (Elt Ideal)) (x3 : (⟨S600000, .f32⟩ : BufTy).Contents (Elt Ideal)) (x4 : (⟨S128x128, .f32⟩ : BufTy).Contents (Elt Ideal)) (x5 x6 x7 : (⟨S128, .f32⟩ : BufTy).Contents (Elt Ideal)) (x8 x9 : (⟨S384x128, .f32⟩ : BufTy).Contents (Elt Ideal)) (x10 x11 : (⟨S384, .f32⟩ : BufTy).Contents (Elt Ideal)) (x12 x13 : (⟨S128, .f32⟩ : BufTy).Contents (Elt Ideal)) (x14 : (⟨S128x256, .f32⟩ : BufTy).Contents (Elt Ideal)) (x15 : (⟨S128, .f32⟩ : BufTy).Contents (Elt Ideal)) (x16 : (⟨S50000x128, .f32⟩ : BufTy).Contents (Elt Ideal)) : (⟨S50000x128, .f32⟩ : BufTy).Contents (Elt Ideal) :=
  Region1.rowsOut (HostMid.aggOf (Region0.proj x0 x4) x1 x2 x3)
    (shapeCast S1x128 (x5 : S128.Idx → EReal) shapeCasts_S128_S1x128) (shapeCast S1x128 (x6 : S128.Idx → EReal) shapeCasts_S128_S1x128) (shapeCast S1x128 (x7 : S128.Idx → EReal) shapeCasts_S128_S1x128)
    x16
    (transpose S128x384 [1, 0] (x8 : S384x128.Idx → EReal) transposes_S384x128_S128x384_1_0)
    (transpose S128x384 [1, 0] (x9 : S384x128.Idx → EReal) transposes_S384x128_S128x384_1_0)
    (shapeCast S1x384 (x10 : S384.Idx → EReal) shapeCasts_S384_S1x384) (shapeCast S1x384 (x11 : S384.Idx → EReal) shapeCasts_S384_S1x384)
    (shapeCast S1x128 (x12 : S128.Idx → EReal) shapeCasts_S128_S1x128) (shapeCast S1x128 (x13 : S128.Idx → EReal) shapeCasts_S128_S1x128)
    (extractStridedSlice S128x128 ![0, 0] (transpose S256x128 [1, 0] (x14 : S128x256.Idx → EReal) transposes_S128x256_S256x128_1_0) slices_S256x128_S128x128_0_0)
    (extractStridedSlice S128x128 ![128, 0] (transpose S256x128 [1, 0] (x14 : S128x256.Idx → EReal) transposes_S128x256_S256x128_1_0) slices_S256x128_S128x128_128_0)
    (shapeCast S1x128 (x15 : S128.Idx → EReal) shapeCasts_S128_S1x128)

variable (m : (ℓ : Loc nD τ sig) → Buf (Elt Ideal) ℓ) (ρ : Dev nD → PrngReg)

set_option maxHeartbeats 2000000 in
/-- The result buffer's contents at the last boundary are `kernelOut` of the launch contents of the arguments. -/
theorem kernel_value (c : Dev nD) :
    W3 m ρ c (Proc.devRef .tc main_v27) = kernelOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  have s0 : W1 m ρ c (Proc.devRef .tc main_v0) = Region0.proj (m ((c.tc : Thread nD τ).loc main_arg0)) (m ((c.tc : Thread nD τ).loc main_arg4)) :=
    (W1_arr m ρ c 2).trans (Region0.final (V0 m ρ) c)
  have a1 : W1 m ρ c (Proc.devRef .tc main_arg1) = m ((c.tc : Thread nD τ).loc main_arg1) := (W1_of_ne m ρ c main_arg1 (by decide)).trans rfl
  have a2 : W1 m ρ c (Proc.devRef .tc main_arg2) = m ((c.tc : Thread nD τ).loc main_arg2) := (W1_of_ne m ρ c main_arg2 (by decide)).trans rfl
  have a3 : W1 m ρ c (Proc.devRef .tc main_arg3) = m ((c.tc : Thread nD τ).loc main_arg3) := (W1_of_ne m ρ c main_arg3 (by decide)).trans rfl
  have a5 : W1 m ρ c (Proc.devRef .tc main_arg5) = m ((c.tc : Thread nD τ).loc main_arg5) := (W1_of_ne m ρ c main_arg5 (by decide)).trans rfl
  have a6 : W1 m ρ c (Proc.devRef .tc main_arg6) = m ((c.tc : Thread nD τ).loc main_arg6) := (W1_of_ne m ρ c main_arg6 (by decide)).trans rfl
  have a7 : W1 m ρ c (Proc.devRef .tc main_arg7) = m ((c.tc : Thread nD τ).loc main_arg7) := (W1_of_ne m ρ c main_arg7 (by decide)).trans rfl
  have a8 : W1 m ρ c (Proc.devRef .tc main_arg8) = m ((c.tc : Thread nD τ).loc main_arg8) := (W1_of_ne m ρ c main_arg8 (by decide)).trans rfl
  have a9 : W1 m ρ c (Proc.devRef .tc main_arg9) = m ((c.tc : Thread nD τ).loc main_arg9) := (W1_of_ne m ρ c main_arg9 (by decide)).trans rfl
  have a10 : W1 m ρ c (Proc.devRef .tc main_arg10) = m ((c.tc : Thread nD τ).loc main_arg10) := (W1_of_ne m ρ c main_arg10 (by decide)).trans rfl
  have a11 : W1 m ρ c (Proc.devRef .tc main_arg11) = m ((c.tc : Thread nD τ).loc main_arg11) := (W1_of_ne m ρ c main_arg11 (by decide)).trans rfl
  have a12 : W1 m ρ c (Proc.devRef .tc main_arg12) = m ((c.tc : Thread nD τ).loc main_arg12) := (W1_of_ne m ρ c main_arg12 (by decide)).trans rfl
  have a13 : W1 m ρ c (Proc.devRef .tc main_arg13) = m ((c.tc : Thread nD τ).loc main_arg13) := (W1_of_ne m ρ c main_arg13 (by decide)).trans rfl
  have a14 : W1 m ρ c (Proc.devRef .tc main_arg14) = m ((c.tc : Thread nD τ).loc main_arg14) := (W1_of_ne m ρ c main_arg14 (by decide)).trans rfl
  have a15 : W1 m ρ c (Proc.devRef .tc main_arg15) = m ((c.tc : Thread nD τ).loc main_arg15) := (W1_of_ne m ρ c main_arg15 (by decide)).trans rfl
  have a16 : W1 m ρ c (Proc.devRef .tc main_arg16) = m ((c.tc : Thread nD τ).loc main_arg16) := (W1_of_ne m ρ c main_arg16 (by decide)).trans rfl
  have e_v13 := (HostMid.mid_v13 (W1 m ρ c)).trans (by rw [s0, a1, a2, a3])
  have e_v19 := (HostMid.mid_v19 (W1 m ρ c)).trans (by rw [a5])
  have e_v20 := (HostMid.mid_v20 (W1 m ρ c)).trans (by rw [a6])
  have e_v21 := (HostMid.mid_v21 (W1 m ρ c)).trans (by rw [a7])
  have e_v22 := (HostMid.mid_v22 (W1 m ρ c)).trans (by rw [a10])
  have e_v23 := (HostMid.mid_v23 (W1 m ρ c)).trans (by rw [a11])
  have e_v24 := (HostMid.mid_v24 (W1 m ρ c)).trans (by rw [a12])
  have e_v25 := (HostMid.mid_v25 (W1 m ρ c)).trans (by rw [a13])
  have e_v26 := (HostMid.mid_v26 (W1 m ρ c)).trans (by rw [a15])
  have e_v14 := (HostMid.mid_v14 (W1 m ρ c)).trans (by rw [a8])
  have e_v15 := (HostMid.mid_v15 (W1 m ρ c)).trans (by rw [a9])
  have e_v17 := (HostMid.mid_v17 (W1 m ρ c)).trans (by rw [a14])
  have e_v18 := (HostMid.mid_v18 (W1 m ρ c)).trans (by rw [a14])
  have e_arg16 := (HostMid.mid_arg16 (W1 m ρ c)).trans a16
  refine (W3_arr m ρ c 14).trans ((Region1.final (V2 m ρ) c).trans ?_)
  unfold kernelOut
  show Region1.rowsOut (StableHlo.after hostOps1 (W1 m ρ c) (Proc.devRef .tc main_v13)) (StableHlo.after hostOps1 (W1 m ρ c) (Proc.devRef .tc main_v19))
      (StableHlo.after hostOps1 (W1 m ρ c) (Proc.devRef .tc main_v20)) (StableHlo.after hostOps1 (W1 m ρ c) (Proc.devRef .tc main_v21))
      (StableHlo.after hostOps1 (W1 m ρ c) (Proc.devRef .tc main_arg16)) (StableHlo.after hostOps1 (W1 m ρ c) (Proc.devRef .tc main_v14))
      (StableHlo.after hostOps1 (W1 m ρ c) (Proc.devRef .tc main_v15)) (StableHlo.after hostOps1 (W1 m ρ c) (Proc.devRef .tc main_v22))
      (StableHlo.after hostOps1 (W1 m ρ c) (Proc.devRef .tc main_v23)) (StableHlo.after hostOps1 (W1 m ρ c) (Proc.devRef .tc main_v24))
      (StableHlo.after hostOps1 (W1 m ρ c) (Proc.devRef .tc main_v25)) (StableHlo.after hostOps1 (W1 m ρ c) (Proc.devRef .tc main_v17))
      (StableHlo.after hostOps1 (W1 m ρ c) (Proc.devRef .tc main_v18)) (StableHlo.after hostOps1 (W1 m ρ c) (Proc.devRef .tc main_v26)) = _
  rw [e_v13, e_v19, e_v20, e_v21, e_arg16, e_v14, e_v15, e_v22, e_v23, e_v24, e_v25, e_v17, e_v18, e_v26]

end Cert.GcnGru.KernelValue

end
-- ==== Proof.RefRow.lean ====
/-
  The reference program's result, one row at a time.

  Row `r` of the reference's output depends on row `r` of the aggregated features (the scatter-add result, kept here as
  the opaque term it is), on row `r` of the hidden state, and on the parameters. Reading the program's stages at the
  index `(r, k)`, innermost first: the biased aggregate is rectified; its mean and variance are sums over the 128 columns
  divided by the literal 128, and the first normalisation scales the centred row by `rsqrt (var + ε)`, by `g` and shifts
  it by `b`; the two gate pre-activations are sums over the 128 features against the transposed weights, and the three
  gates are their columns `q`, `128 + q`, `256 + q`; `1 / (1 + exp (−y))` is the logistic function, the literal one being
  the real number one; the new hidden row is normalised the same way; the last product runs over the 256 columns of the
  two normalised rows laid side by side, and a sum over 256 indices is the sum over the first 128 plus the sum over the
  last 128; the result is kept where it is at least zero and multiplied by the slope literal elsewhere. Every sum the
  program starts from the zero literal, which is the number zero.
-/
import proofs.«145148_j20014547599384_1_alg».proof.Proof.RefReadP
import proofs.«145148_j20014547599384_1_alg».proof.Proof.RowSpec
import Idealize.ShloMosaic.Lib.ValueIdx
import Idealize.ShloMosaic.Lib.Pipeline.Value
import Idealize.ShloMosaic.PureOps.Ideal.Laws

noncomputable section

namespace Cert.GcnGru.RefRow

open Cert.ReferenceIdeal Cert.ReferenceIdeal.Gen Cert.ReferenceIdeal.Read Idealize.ShloMosaic Idealize.ShloMosaic.ValueIdx

/-- Two indices of rank two with the same coordinates are equal. -/
local macro "idx_eq2" : tactic =>
  `(tactic| exact funext fun a => Fin.ext (by match a with | ⟨0, _⟩ => rfl | ⟨1, _⟩ => rfl))
/-- Two indices of rank one with the same coordinate are equal. -/
local macro "idx_eq1" : tactic =>
  `(tactic| exact funext fun a => Fin.ext (by match a with | ⟨0, _⟩ => rfl))
/-- Both sides are the same expression once the definitions are opened. -/
local macro "same" : tactic => `(tactic| first | done | rfl)

/-- The literal one is the number one. -/
theorem one_f32 : (Ideal.ofBits .f32 0x3F800000#32 : EReal) = 1 := by
  simp [Ideal.ofBits, Ideal.ieee, -EReal.coe_mul]; norm_num

/-- `1 / (1 + exp (−y))`, with the literal one, is the logistic function. -/
theorem sigmoid_eq (y : EReal) :
    Ideal.div (Ideal.ofBits .f32 0x3F800000#32 : EReal) ((Ideal.ofBits .f32 0x3F800000#32 : EReal) + Ideal.exp (-y))
      = Ideal.logistic y := by
  rw [one_f32]; same

section
variable (x0 : (⟨S50000x128, .f32⟩ : BufTy).Contents (Elt Ideal))
  (x1 x2 : (⟨S600000, .i32⟩ : BufTy).Contents (Elt Ideal))
  (x3 : (⟨S600000, .f32⟩ : BufTy).Contents (Elt Ideal))
  (x4 : (⟨S128x128, .f32⟩ : BufTy).Contents (Elt Ideal))
  (x5 x6 x7 : (⟨S128, .f32⟩ : BufTy).Contents (Elt Ideal))
  (x8 x9 : (⟨S384x128, .f32⟩ : BufTy).Contents (Elt Ideal))
  (x10 x11 : (⟨S384, .f32⟩ : BufTy).Contents (Elt Ideal))
  (x12 x13 : (⟨S128, .f32⟩ : BufTy).Contents (Elt Ideal))
  (x14 : (⟨S128x256, .f32⟩ : BufTy).Contents (Elt Ideal))
  (x15 : (⟨S128, .f32⟩ : BufTy).Contents (Elt Ideal))
  (x16 : (⟨S50000x128, .f32⟩ : BufTy).Contents (Elt Ideal))

local notation "V13" => val_main_v13 (F := Ideal) x0 x1 x2 x3 x4
local notation "V17" => val_main_v17 (F := Ideal) x0 x1 x2 x3 x4 x5
local notation "V22" => val_main_v22 (F := Ideal) x0 x1 x2 x3 x4 x5
local notation "V29" => val_main_v29 (F := Ideal) x0 x1 x2 x3 x4 x5
local notation "V34" => val_main_v34 (F := Ideal) x0 x1 x2 x3 x4 x5
local notation "V41" => val_main_v41 (F := Ideal) x0 x1 x2 x3 x4 x5 x6 x7
local notation "V46" => val_main_v46 (F := Ideal) x0 x1 x2 x3 x4 x5 x6 x7 x8 x10
local notation "V51" => val_main_v51 (F := Ideal) x9 x11 x16
local notation "V52" => val_main_v52 (F := Ideal) x0 x1 x2 x3 x4 x5 x6 x7 x8 x10
local notation "V53" => val_main_v53 (F := Ideal) x0 x1 x2 x3 x4 x5 x6 x7 x8 x10
local notation "V54" => val_main_v54 (F := Ideal) x0 x1 x2 x3 x4 x5 x6 x7 x8 x10
local notation "V55" => val_main_v55 (F := Ideal) x9 x11 x16
local notation "V56" => val_main_v56 (F := Ideal) x9 x11 x16
local notation "V57" => val_main_v57 (F := Ideal) x9 x11 x16
local notation "V64" => val_main_v64 (F := Ideal) x0 x1 x2 x3 x4 x5 x6 x7 x8 x9 x10 x11 x16
local notation "V71" => val_main_v71 (F := Ideal) x0 x1 x2 x3 x4 x5 x6 x7 x8 x9 x10 x11 x16
local notation "V79" => val_main_v79 (F := Ideal) x0 x1 x2 x3 x4 x5 x6 x7 x8 x9 x10 x11 x16
local notation "V84" => val_main_v84 (F := Ideal) x0 x1 x2 x3 x4 x5 x6 x7 x8 x9 x10 x11 x16
local notation "V91" => val_main_v91 (F := Ideal) x0 x1 x2 x3 x4 x5 x6 x7 x8 x9 x10 x11 x16
local notation "V96" => val_main_v96 (F := Ideal) x0 x1 x2 x3 x4 x5 x6 x7 x8 x9 x10 x11 x16
local notation "V103" => val_main_v103 (F := Ideal) x0 x1 x2 x3 x4 x5 x6 x7 x8 x9 x10 x11 x12 x13 x16
local notation "V104" => val_main_v104 (F := Ideal) x0 x1 x2 x3 x4 x5 x6 x7 x8 x9 x10 x11 x12 x13 x16
local notation "V109" => val_main_v109 (F := Ideal) x0 x1 x2 x3 x4 x5 x6 x7 x8 x9 x10 x11 x12 x13 x14 x15 x16
local notation "V114" => val_main_v114 (F := Ideal) x0 x1 x2 x3 x4 x5 x6 x7 x8 x9 x10 x11 x12 x13 x14 x15 x16

/-! ## Parameter vectors laid along the rows -/

/-- A vector of 128 entries repeated along the rows reads, at row `r` and column `k`, its entry `k`. -/
theorem vec128_at (x : (⟨S128, .f32⟩ : BufTy).Contents (Elt Ideal)) (r : Fin 50000) (k : Fin 128) :
    val_main_v15 (F := Ideal) x (ix2 r k) = x (ix1 k) :=
  (val_main_v15_apply x (ix2 r k)).trans ((val_main_v14_apply x _).trans (congrArg x (by idx_eq1)))

theorem g1_at (x : (⟨S128, .f32⟩ : BufTy).Contents (Elt Ideal)) (r : Fin 50000) (k : Fin 128) :
    val_main_v37 (F := Ideal) x (ix2 r k) = x (ix1 k) := vec128_at x r k
theorem b1_at (x : (⟨S128, .f32⟩ : BufTy).Contents (Elt Ideal)) (r : Fin 50000) (k : Fin 128) :
    val_main_v40 (F := Ideal) x (ix2 r k) = x (ix1 k) := vec128_at x r k
theorem g2_at (x : (⟨S128, .f32⟩ : BufTy).Contents (Elt Ideal)) (r : Fin 50000) (k : Fin 128) :
    val_main_v99 (F := Ideal) x (ix2 r k) = x (ix1 k) := vec128_at x r k
theorem b2_at (x : (⟨S128, .f32⟩ : BufTy).Contents (Elt Ideal)) (r : Fin 50000) (k : Fin 128) :
    val_main_v102 (F := Ideal) x (ix2 r k) = x (ix1 k) := vec128_at x r k
theorem sb_at (x : (⟨S128, .f32⟩ : BufTy).Contents (Elt Ideal)) (r : Fin 50000) (k : Fin 128) :
    val_main_v108 (F := Ideal) x (ix2 r k) = x (ix1 k) := vec128_at x r k

/-! ## The rectified aggregate and its normalisation -/

/-- The rectified, biased aggregate at `(r, k)`. -/
theorem relu_at (r : Fin 50000) (k : Fin 128) :
    V17 (ix2 r k) = reluRow (fun k' => V13 (ix2 r k')) (fun k' => x5 (ix1 k')) k := by
  rw [val_main_v17_apply, val_main_v16_apply, vec128_at, val_main_call0_v0_apply, val_main_call0_cst_apply]
  same

/-- The mean of row `r` of the rectified aggregate, as the program lays it along the row. -/
theorem mean1_at (r : Fin 50000) (k : Fin 128) :
    V22 (ix2 r k) = rowMean (fun k' => V17 (ix2 r k')) := by
  have e : ∀ k' : Fin 128, idx_main_v18 (idx_main_v19 (idx_main_v22 (ix2 r k))) k' = ix2 r k' := fun k' => by idx_eq2
  rw [val_main_v22_apply, val_main_v21_apply, val_main_v19_apply, val_main_v18_apply, val_main_v20_apply,
    val_main_cst_2_apply, val_main_cst_1_apply]
  simp only [e, Ideal.ofBits_def, Ideal.ofBits_zero_f32, zero_add]
  same

/-- The program lays the same mean along the row a second time. -/
theorem mean1b_at (r : Fin 50000) (k : Fin 128) :
    V29 (ix2 r k) = rowMean (fun k' => V17 (ix2 r k')) := mean1_at x0 x1 x2 x3 x4 x5 r k

/-- The reciprocal root of the variance of row `r` plus `ε`. -/
theorem rstd1_at (r : Fin 50000) (k : Fin 128) :
    V34 (ix2 r k) = Ideal.rsqrt (rowVar (fun k' => V17 (ix2 r k')) + epsL) := by
  have e : ∀ k' : Fin 128, idx_main_v25 (idx_main_v26 (idx_main_v34 (ix2 r k))) k' = ix2 r k' := fun k' => by idx_eq2
  rw [val_main_v34_apply, val_main_v33_apply, val_main_v32_apply, val_main_v28_apply, val_main_v26_apply,
    val_main_v25_apply, val_main_v27_apply, val_main_cst_4_apply, val_main_v31_apply, val_main_cst_5_apply,
    val_main_cst_3_apply]
  simp only [e, val_main_v24_apply, val_main_v23_apply, mean1_at, Ideal.ofBits_def, Ideal.ofBits_zero_f32, zero_add]
  same

/-- The first normalisation at `(r, k)`, over the rectified row. -/
theorem ln1_at (r : Fin 50000) (k : Fin 128) :
    V41 (ix2 r k) = lnRow (fun k' => V17 (ix2 r k')) (fun k' => x6 (ix1 k')) (fun k' => x7 (ix1 k')) k := by
  rw [val_main_v41_apply, val_main_v38_apply, val_main_v35_apply, val_main_v30_apply, mean1b_at, rstd1_at,
    g1_at, b1_at]
  same

/-- Row `r` of the rectified aggregate. -/
theorem relu_row (r : Fin 50000) :
    (fun k => V17 (ix2 r k)) = reluRow (fun k => V13 (ix2 r k)) (fun k => x5 (ix1 k)) :=
  funext fun k => relu_at x0 x1 x2 x3 x4 x5 r k

/-- Row `r` of the normalised features. -/
theorem xg_row (r : Fin 50000) :
    (fun k => V41 (ix2 r k))
      = lnRow (reluRow (fun k => V13 (ix2 r k)) (fun k => x5 (ix1 k))) (fun k => x6 (ix1 k)) (fun k => x7 (ix1 k)) :=
  funext fun k => by rw [ln1_at, relu_row]

/-! ## The gates -/

/-- The input gates' pre-activation at `(r, j)`. -/
theorem gi_at (r : Fin 50000) (j : Fin 384) :
    V46 (ix2 r j)
      = gate (fun k => V41 (ix2 r k)) (fun k j' => x8 (ix2 j' k)) (fun j' => x10 (ix1 j')) j := by
  have el : ∀ k : Fin 128, lidx_main_v43 (ix2 r j) k = ix2 r k := fun k => by idx_eq2
  have er : ∀ k : Fin 128, idx_main_v42 (ridx_main_v43 (ix2 r j) k) = ix2 j k := fun k => by idx_eq2
  have eb : idx_main_v44 (idx_main_v45 (ix2 r j)) = ix1 j := by idx_eq1
  rw [val_main_v46_apply, val_main_v43_apply, val_main_v45_apply, val_main_v44_apply, eb]
  simp only [val_main_v42_apply, el, er]
  same

/-- The hidden gates' pre-activation at `(r, j)`. -/
theorem gh_at (r : Fin 50000) (j : Fin 384) :
    V51 (ix2 r j)
      = gate (fun k => x16 (ix2 r k)) (fun k j' => x9 (ix2 j' k)) (fun j' => x11 (ix1 j')) j := by
  have el : ∀ k : Fin 128, lidx_main_v48 (ix2 r j) k = ix2 r k := fun k => by idx_eq2
  have er : ∀ k : Fin 128, idx_main_v47 (ridx_main_v48 (ix2 r j) k) = ix2 j k := fun k => by idx_eq2
  have eb : idx_main_v49 (idx_main_v50 (ix2 r j)) = ix1 j := by idx_eq1
  rw [val_main_v51_apply, val_main_v48_apply, val_main_v50_apply, val_main_v49_apply, eb]
  simp only [val_main_v47_apply, el, er]
  same

/-- The three column blocks of the input gates. -/
theorem gi_r_at (r : Fin 50000) (q : Fin 128) : V52 (ix2 r q) = V46 (ix2 r (col 0 (by omega) q)) :=
  (val_main_v52_apply x0 x1 x2 x3 x4 x5 x6 x7 x8 x10 (ix2 r q)).trans
    (congrArg V46 (funext fun a => Fin.ext (by
      match a with | ⟨0, _⟩ => rfl | ⟨1, _⟩ => exact (Nat.zero_add _).symm)))
theorem gi_z_at (r : Fin 50000) (q : Fin 128) : V53 (ix2 r q) = V46 (ix2 r (col 128 (by omega) q)) :=
  (val_main_v53_apply x0 x1 x2 x3 x4 x5 x6 x7 x8 x10 (ix2 r q)).trans (congrArg V46 (by idx_eq2))
theorem gi_n_at (r : Fin 50000) (q : Fin 128) : V54 (ix2 r q) = V46 (ix2 r (col 256 (by omega) q)) :=
  (val_main_v54_apply x0 x1 x2 x3 x4 x5 x6 x7 x8 x10 (ix2 r q)).trans (congrArg V46 (by idx_eq2))

/-- The three column blocks of the hidden gates. -/
theorem gh_r_at (r : Fin 50000) (q : Fin 128) : V55 (ix2 r q) = V51 (ix2 r (col 0 (by omega) q)) :=
  (val_main_v55_apply x9 x11 x16 (ix2 r q)).trans
    (congrArg V51 (funext fun a => Fin.ext (by
      match a with | ⟨0, _⟩ => rfl | ⟨1, _⟩ => exact (Nat.zero_add _).symm)))
theorem gh_z_at (r : Fin 50000) (q : Fin 128) : V56 (ix2 r q) = V51 (ix2 r (col 128 (by omega) q)) :=
  (val_main_v56_apply x9 x11 x16 (ix2 r q)).trans (congrArg V51 (by idx_eq2))
theorem gh_n_at (r : Fin 50000) (q : Fin 128) : V57 (ix2 r q) = V51 (ix2 r (col 256 (by omega) q)) :=
  (val_main_v57_apply x9 x11 x16 (ix2 r q)).trans (congrArg V51 (by idx_eq2))

/-- The reset gate. -/
theorem rgate_at (r : Fin 50000) (q : Fin 128) :
    V64 (ix2 r q)
      = Ideal.logistic (V46 (ix2 r (col 0 (by omega) q)) + V51 (ix2 r (col 0 (by omega) q))) := by
  rw [val_main_v64_apply, val_main_v63_apply, val_main_cst_7_apply, val_main_v62_apply, val_main_v61_apply,
    val_main_cst_6_apply, val_main_v60_apply, val_main_v59_apply, val_main_v58_apply, gi_r_at, gh_r_at]
  generalize V46 (ix2 r (col 0 (by omega) q)) = A
  generalize V51 (ix2 r (col 0 (by omega) q)) = B
  exact sigmoid_eq _

/-- The update gate. -/
theorem zgate_at (r : Fin 50000) (q : Fin 128) :
    V71 (ix2 r q)
      = Ideal.logistic (V46 (ix2 r (col 128 (by omega) q)) + V51 (ix2 r (col 128 (by omega) q))) := by
  rw [val_main_v71_apply, val_main_v70_apply, val_main_cst_9_apply, val_main_v69_apply, val_main_v68_apply,
    val_main_cst_8_apply, val_main_v67_apply, val_main_v66_apply, val_main_v65_apply, gi_z_at, gh_z_at]
  generalize V46 (ix2 r (col 128 (by omega) q)) = A
  generalize V51 (ix2 r (col 128 (by omega) q)) = B
  exact sigmoid_eq _

/-- The new hidden row before its normalisation, at `(r, q)`. -/
theorem gru_at (r : Fin 50000) (q : Fin 128) :
    V79 (ix2 r q)
      = gruRow (fun k => V41 (ix2 r k)) (fun k => x16 (ix2 r k)) (fun k j => x8 (ix2 j k))
          (fun k j => x9 (ix2 j k)) (fun j => x10 (ix1 j)) (fun j => x11 (ix1 j)) q := by
  rw [val_main_v79_apply, val_main_v77_apply, val_main_v76_apply, val_main_v75_apply, val_main_cst_10_apply,
    val_main_v74_apply, val_main_v73_apply, val_main_v72_apply, val_main_v78_apply, zgate_at, rgate_at,
    gi_n_at, gh_n_at]
  simp only [gi_at, gh_at, Ideal.addf_def, Ideal.mulf_def, Ideal.subf_def, Ideal.hostUnary_tanh_def, Ideal.ofBits_def]
  same

/-! ## The second normalisation -/

theorem mean2_at (r : Fin 50000) (k : Fin 128) :
    V84 (ix2 r k) = rowMean (fun k' => V79 (ix2 r k')) := by
  have e : ∀ k' : Fin 128, idx_main_v80 (idx_main_v81 (idx_main_v84 (ix2 r k))) k' = ix2 r k' := fun k' => by idx_eq2
  rw [val_main_v84_apply, val_main_v83_apply, val_main_v81_apply, val_main_v80_apply, val_main_v82_apply,
    val_main_cst_12_apply, val_main_cst_11_apply]
  simp only [e, Ideal.ofBits_def, Ideal.ofBits_zero_f32, zero_add]
  same

theorem mean2b_at (r : Fin 50000) (k : Fin 128) :
    V91 (ix2 r k) = rowMean (fun k' => V79 (ix2 r k')) :=
  mean2_at x0 x1 x2 x3 x4 x5 x6 x7 x8 x9 x10 x11 x16 r k

theorem rstd2_at (r : Fin 50000) (k : Fin 128) :
    V96 (ix2 r k) = Ideal.rsqrt (rowVar (fun k' => V79 (ix2 r k')) + epsL) := by
  have e : ∀ k' : Fin 128, idx_main_v87 (idx_main_v88 (idx_main_v96 (ix2 r k))) k' = ix2 r k' := fun k' => by idx_eq2
  rw [val_main_v96_apply, val_main_v95_apply, val_main_v94_apply, val_main_v90_apply, val_main_v88_apply,
    val_main_v87_apply, val_main_v89_apply, val_main_cst_14_apply, val_main_v93_apply, val_main_cst_15_apply,
    val_main_cst_13_apply]
  simp only [e, val_main_v86_apply, val_main_v85_apply, mean2_at, Ideal.ofBits_def, Ideal.ofBits_zero_f32, zero_add]
  same

/-- The second normalisation at `(r, k)`, over the new hidden row. -/
theorem ln2_at (r : Fin 50000) (k : Fin 128) :
    V103 (ix2 r k) = lnRow (fun k' => V79 (ix2 r k')) (fun k' => x12 (ix1 k')) (fun k' => x13 (ix1 k')) k := by
  rw [val_main_v103_apply, val_main_v100_apply, val_main_v97_apply, val_main_v92_apply, mean2b_at, rstd2_at,
    g2_at, b2_at]
  same

/-- Row `r` of the new hidden state before its normalisation. -/
theorem gru_row (r : Fin 50000) :
    (fun k => V79 (ix2 r k))
      = gruRow (lnRow (reluRow (fun k => V13 (ix2 r k)) (fun k => x5 (ix1 k))) (fun k => x6 (ix1 k)) (fun k => x7 (ix1 k)))
          (fun k => x16 (ix2 r k)) (fun k j => x8 (ix2 j k)) (fun k j => x9 (ix2 j k))
          (fun j => x10 (ix1 j)) (fun j => x11 (ix1 j)) :=
  funext fun k => by rw [gru_at, xg_row]

/-- Row `r` of the normalised hidden state. -/
theorem hn_row (r : Fin 50000) :
    (fun k => V103 (ix2 r k))
      = lnRow (gruRow (lnRow (reluRow (fun k => V13 (ix2 r k)) (fun k => x5 (ix1 k))) (fun k => x6 (ix1 k)) (fun k => x7 (ix1 k)))
          (fun k => x16 (ix2 r k)) (fun k j => x8 (ix2 j k)) (fun k j => x9 (ix2 j k))
          (fun j => x10 (ix1 j)) (fun j => x11 (ix1 j))) (fun k => x12 (ix1 k)) (fun k => x13 (ix1 k)) :=
  funext fun k => by rw [ln2_at, gru_row]

/-! ## The skip layer over the two rows laid side by side -/

/-- The first 128 columns of the joined rows are the normalised hidden row. -/
theorem cat_lo (r : Fin 50000) (k : Fin 128) : V104 (ix2 r (lo k)) = V103 (ix2 r k) := by
  unfold val_main_v104
  generalize V103 = y1
  generalize V41 = y2
  exact concatenate_pair_apply_left (1 : Fin S50000x256.rank) y1 y2 _ (ix2 r (lo k)) rfl (ix2 r k)
    (fun b => by match b with | ⟨0, _⟩ => rfl | ⟨1, _⟩ => rfl)

/-- The last 128 columns of the joined rows are the normalised features. -/
theorem cat_hi (r : Fin 50000) (k : Fin 128) : V104 (ix2 r (hi k)) = V41 (ix2 r k) := by
  unfold val_main_v104
  generalize V103 = y1
  generalize V41 = y2
  exact concatenate_pair_apply_right (1 : Fin S50000x256.rank) y1 y2 _ (ix2 r (hi k)) rfl rfl (ix2 r k)
    (fun b hb => by match b with | ⟨0, _⟩ => rfl | ⟨1, _⟩ => exact absurd rfl hb)
    (by show k.val + 128 = 128 + k.val; omega)

/-- The skip layer's pre-activation at `(r, q)`. -/
theorem skip_at (r : Fin 50000) (q : Fin 128) :
    V109 (ix2 r q)
      = skipRow (fun k => V103 (ix2 r k)) (fun k => V41 (ix2 r k)) (fun k j => x14 (ix2 j (lo k)))
          (fun k j => x14 (ix2 j (hi k))) (fun j => x15 (ix1 j)) q := by
  have el : ∀ k : Fin 256, lidx_main_v106 (ix2 r q) k = ix2 r k := fun k => by idx_eq2
  have er : ∀ k : Fin 256, idx_main_v105 (ridx_main_v106 (ix2 r q) k) = ix2 q k := fun k => by idx_eq2
  rw [val_main_v109_apply, val_main_v106_apply, sb_at]
  simp only [val_main_v105_apply, el, er]
  rw [sum_split256]
  simp only [cat_lo, cat_hi]
  same

/-- The result is the leaky rectifier of the skip layer's pre-activation. -/
theorem out_at (r : Fin 50000) (q : Fin 128) : V114 (ix2 r q) = leaky (V109 (ix2 r q)) := by
  rw [val_main_v114_apply, val_main_v111_apply, val_main_v113_apply, val_main_v110_apply, val_main_cst_16_apply,
    val_main_v112_apply, val_main_cst_17_apply]
  same

end

/-- The reference's result at row `r`, column `q`, is the row function of the aggregated features' row `r`, the hidden
    state's row `r` and the parameters. -/
theorem ref_at (x0 : (⟨S50000x128, .f32⟩ : BufTy).Contents (Elt Ideal))
    (x1 x2 : (⟨S600000, .i32⟩ : BufTy).Contents (Elt Ideal))
    (x3 : (⟨S600000, .f32⟩ : BufTy).Contents (Elt Ideal))
    (x4 : (⟨S128x128, .f32⟩ : BufTy).Contents (Elt Ideal))
    (x5 x6 x7 : (⟨S128, .f32⟩ : BufTy).Contents (Elt Ideal))
    (x8 x9 : (⟨S384x128, .f32⟩ : BufTy).Contents (Elt Ideal))
    (x10 x11 : (⟨S384, .f32⟩ : BufTy).Contents (Elt Ideal))
    (x12 x13 : (⟨S128, .f32⟩ : BufTy).Contents (Elt Ideal))
    (x14 : (⟨S128x256, .f32⟩ : BufTy).Contents (Elt Ideal))
    (x15 : (⟨S128, .f32⟩ : BufTy).Contents (Elt Ideal))
    (x16 : (⟨S50000x128, .f32⟩ : BufTy).Contents (Elt Ideal))
    (r : Fin 50000) (q : Fin 128) :
    val_main_v114 (F := Ideal) x0 x1 x2 x3 x4 x5 x6 x7 x8 x9 x10 x11 x12 x13 x14 x15 x16 (ix2 r q)
      = outRow (fun k => val_main_v13 (F := Ideal) x0 x1 x2 x3 x4 (ix2 r k)) (fun k => x16 (ix2 r k))
          (fun k => x5 (ix1 k)) (fun k => x6 (ix1 k)) (fun k => x7 (ix1 k))
          (fun k j => x8 (ix2 j k)) (fun k j => x9 (ix2 j k)) (fun j => x10 (ix1 j)) (fun j => x11 (ix1 j))
          (fun k => x12 (ix1 k)) (fun k => x13 (ix1 k))
          (fun k j => x14 (ix2 j (lo k))) (fun k j => x14 (ix2 j (hi k))) (fun j => x15 (ix1 j)) q := by
  rw [out_at, skip_at, hn_row, xg_row]
  same

end Cert.GcnGru.RefRow

end
-- ==== Proof.Bridge.lean ====
/-
  The two programs compute one function.

  The kernel program's result is `kernelOut` of the argument arrays (Proof/KernelValue.lean): `outRow`, row by row, of the
  aggregation of the block-wise projection and of the re-laid parameters. The reference's last stage read at an index is
  `outRow` of its own aggregation stage and of the parameters read directly (Proof/RefRow.lean). The two aggregations are the
  same operations applied to the two projections, and the two projections are the same sum over the contraction index; a
  vector parameter with a leading unit axis, a transposed weight, and a half of the transposed skip weight read back as the
  parameter at the matching index. So the two results agree at every node and feature.
-/
import proofs.«145148_j20014547599384_1_alg».proof.Proof.KernelValue
import proofs.«145148_j20014547599384_1_alg».proof.Proof.RefReadP
import proofs.«145148_j20014547599384_1_alg».proof.Proof.RefRow

set_option maxRecDepth 16384

noncomputable section

namespace Cert.GcnGru.Bridge

open Cert.GcnGru
open Idealize.ShloMosaic Idealize.ShloMosaic.TcCoe Idealize.SL.Sem Idealize.ShloMosaic.ValueIdx

/-- The reference's projection stage is `proj`: both are the sum over the contraction index. -/
theorem ref_proj (x0 : (⟨Cert.ReferenceIdeal.S50000x128, .f32⟩ : BufTy).Contents (Elt Ideal)) (x4 : (⟨Cert.ReferenceIdeal.S128x128, .f32⟩ : BufTy).Contents (Elt Ideal)) :
    Cert.ReferenceIdeal.Read.val_main_v0 (F := Ideal) x0 x4 = Region0.proj x0 x4 := by
  funext i
  rw [Cert.ReferenceIdeal.Read.val_main_v0_apply]
  unfold Region0.proj
  refine Finset.sum_congr rfl fun k _ => ?_
  have el : Cert.ReferenceIdeal.Read.lidx_main_v0 i k = ix2 (i 0) k := funext fun a => Fin.ext (by
    match a with
    | ⟨0, _⟩ => rfl
    | ⟨1, _⟩ => rfl)
  have er : Cert.ReferenceIdeal.Read.ridx_main_v0 i k = ix2 k (i 1) := funext fun a => Fin.ext (by
    match a with
    | ⟨0, _⟩ => rfl
    | ⟨1, _⟩ => rfl)
  rw [el, er]
  rfl

/-- The reference's aggregation stage is `aggOf` of its projection stage: the same operations in the same order. -/
theorem ref_agg (x0 : (⟨Cert.ReferenceIdeal.S50000x128, .f32⟩ : BufTy).Contents (Elt Ideal)) (x1 x2 : (⟨Cert.ReferenceIdeal.S600000, .i32⟩ : BufTy).Contents (Elt Ideal))
    (x3 : (⟨Cert.ReferenceIdeal.S600000, .f32⟩ : BufTy).Contents (Elt Ideal)) (x4 : (⟨Cert.ReferenceIdeal.S128x128, .f32⟩ : BufTy).Contents (Elt Ideal)) :
    Cert.ReferenceIdeal.Read.val_main_v13 (F := Ideal) x0 x1 x2 x3 x4
      = HostMid.aggOf (Cert.ReferenceIdeal.Read.val_main_v0 (F := Ideal) x0 x4) x1 x2 x3 := by
  unfold HostMid.aggOf Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8 Cert.ReferenceIdeal.Read.val_main_v7
    Cert.ReferenceIdeal.Read.val_main_v6 Cert.ReferenceIdeal.Read.val_main_v5 Cert.ReferenceIdeal.Read.val_main_v4 Cert.ReferenceIdeal.Read.val_main_v3
    Cert.ReferenceIdeal.Read.val_main_v2 Cert.ReferenceIdeal.Read.val_main_v1 Cert.ReferenceIdeal.Read.val_main_c Cert.ReferenceIdeal.Read.val_main_c_0
    Cert.ReferenceIdeal.Read.val_main_cst
  rfl

/-- THE TWO PROGRAMS' RESULTS ARE ONE FUNCTION of the argument arrays: at every node and feature both are `outRow` of the
    same rows — the aggregated features agree because the projections do, every re-laid parameter reads back as the
    parameter, and the kernel's two half-width skip products are the reference's one full-width product. -/
theorem out_eq (x0 : (⟨Cert.ReferenceIdeal.S50000x128, .f32⟩ : BufTy).Contents (Elt Ideal))
    (x1 x2 : (⟨Cert.ReferenceIdeal.S600000, .i32⟩ : BufTy).Contents (Elt Ideal))
    (x3 : (⟨Cert.ReferenceIdeal.S600000, .f32⟩ : BufTy).Contents (Elt Ideal))
    (x4 : (⟨Cert.ReferenceIdeal.S128x128, .f32⟩ : BufTy).Contents (Elt Ideal))
    (x5 x6 x7 : (⟨Cert.ReferenceIdeal.S128, .f32⟩ : BufTy).Contents (Elt Ideal))
    (x8 x9 : (⟨Cert.ReferenceIdeal.S384x128, .f32⟩ : BufTy).Contents (Elt Ideal))
    (x10 x11 : (⟨Cert.ReferenceIdeal.S384, .f32⟩ : BufTy).Contents (Elt Ideal))
    (x12 x13 : (⟨Cert.ReferenceIdeal.S128, .f32⟩ : BufTy).Contents (Elt Ideal))
    (x14 : (⟨Cert.ReferenceIdeal.S128x256, .f32⟩ : BufTy).Contents (Elt Ideal))
    (x15 : (⟨Cert.ReferenceIdeal.S128, .f32⟩ : BufTy).Contents (Elt Ideal))
    (x16 : (⟨Cert.ReferenceIdeal.S50000x128, .f32⟩ : BufTy).Contents (Elt Ideal)) :
    KernelValue.kernelOut x0 x1 x2 x3 x4 x5 x6 x7 x8 x9 x10 x11 x12 x13 x14 x15 x16 = Cert.ReferenceIdeal.Read.val_main_v114 (F := Ideal) x0 x1 x2 x3 x4 x5 x6 x7 x8 x9 x10 x11 x12 x13 x14 x15 x16 := by
  funext i
  obtain ⟨r, q, rfl⟩ : ∃ (r : Fin 50000) (q : Fin 128), i = ix2 r q := ⟨i 0, i 1, eq_ix2 i⟩
  refine Eq.trans ?_ (RefRow.ref_at x0 x1 x2 x3 x4 x5 x6 x7 x8 x9 x10 x11 x12 x13 x14 x15 x16 r q).symm
  unfold KernelValue.kernelOut Region1.rowsOut
  refine Region1.outRow_congr ?_ rfl ?_ ?_ ?_ ?_ ?_ ?_ ?_ ?_ ?_ ?_ ?_ ?_ rfl
  · exact funext fun k => by rw [ref_agg, ref_proj]
  · exact funext fun k => HostMid.row128 x5 k
  · exact funext fun k => HostMid.row128 x6 k
  · exact funext fun k => HostMid.row128 x7 k
  · exact funext fun k => funext fun j => HostMid.gateT x8 k j
  · exact funext fun k => funext fun j => HostMid.gateT x9 k j
  · exact funext fun j => HostMid.row384 x10 j
  · exact funext fun j => HostMid.row384 x11 j
  · exact funext fun k => HostMid.row128 x12 k
  · exact funext fun k => HostMid.row128 x13 k
  · exact funext fun k => funext fun j => HostMid.skipLo x14 k j
  · exact funext fun k => funext fun j => HostMid.skipHi x14 k j
  · exact funext fun j => HostMid.row128 x15 j

end Cert.GcnGru.Bridge

end
-- ==== Proof.lean ====
/-
  The certificate: the two-launch graph-convolution / recurrent-cell kernel against its plain reference, at the extended reals.

  Both programs compute, for each of the 50000 nodes, `outRow` of that node's row of the aggregated features and of the hidden
  state and of the parameters (Proof/RowSpec.lean). The aggregated features are the same gather / scale / scatter-add of the
  same projection `x · w` in both programs: the kernel's first launch computes the projection block by block
  (Proof/Region0.lean), the reference by one product; the aggregation is carried as one function of the projection and never
  opened (Proof/HostMid.lean). The kernel's second launch computes `outRow` block by block from transposed and re-laid
  parameter arrays (Proof/KernelRow.lean, Proof/Region1.lean, Proof/KernelValue.lean); the reference computes it whole, with
  the skip layer as one product over the 256-wide concatenation, which is the sum of the kernel's two 128-wide products
  (Proof/RefRow.lean). Proof/Bridge.lean joins the two. No finiteness of the inputs is used: every step is either
  definitional at the extended reals or the splitting of a finite sum.
  The three frame claims are the programs' generated runs; the idealization rewrote nothing, so `preserves` is trivial.
-/
import proofs.«145148_j20014547599384_1_alg».proof.Defs
import proofs.«145148_j20014547599384_1_alg».proof.Proof.Gen.Kernel
import proofs.«145148_j20014547599384_1_alg».proof.Proof.Gen.Kernel.Skeleton
import proofs.«145148_j20014547599384_1_alg».proof.Proof.Gen.Kernel.Launch
import proofs.«145148_j20014547599384_1_alg».proof.Proof.Gen.Kernel.Points
import proofs.«145148_j20014547599384_1_alg».proof.Proof.Gen.Kernel.Frame
import proofs.«145148_j20014547599384_1_alg».proof.Proof.Gen.KernelIdeal
import proofs.«145148_j20014547599384_1_alg».proof.Proof.Gen.KernelIdeal.Skeleton
import proofs.«145148_j20014547599384_1_alg».proof.Proof.Gen.KernelIdeal.Launch
import proofs.«145148_j20014547599384_1_alg».proof.Proof.Gen.KernelIdeal.Points
import proofs.«145148_j20014547599384_1_alg».proof.Proof.Gen.KernelIdeal.Frame
import proofs.«145148_j20014547599384_1_alg».proof.Proof.Gen.ReferenceIdeal
import proofs.«145148_j20014547599384_1_alg».proof.Proof.Gen.Pre_finite_inputs
import proofs.«145148_j20014547599384_1_alg».proof.Proof.KernelRun
import proofs.«145148_j20014547599384_1_alg».proof.Proof.KernelValue
import proofs.«145148_j20014547599384_1_alg».proof.Proof.RefRunP
import proofs.«145148_j20014547599384_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `kernelOut` of the (agreeing) argument arrays. -/
theorem algebraic : Cert.algebraic_KernelIdeal_ReferenceIdeal := by
  intro m ρ m' ρ' _ hagree
  refine ⟨fun c => Cert.GcnGru.KernelValue.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.GcnGru.KernelValue.kernel_value m ρ c), (h c).2⟩)
      (Cert.GcnGru.KernelRun.run_valued (F := Ideal) m ρ)
  · refine (θ_run Cert.ReferenceIdeal.defs _ _).mono (fun r h c => ⟨(h c).1.trans ?_, (h c).2⟩)
      (Cert.ReferenceIdeal.Value.run (F := Ideal) m' ρ')
    obtain ⟨g0, g1, g2, g3, g4, g5, g6, g7, g8, g9, g10, g11, g12, g13, g14, g15, g16⟩ := hagree c
    unfold Cert.ReferenceIdeal.Value.res_main_v114
    rw [g0, g1, g2, g3, g4, g5, g6, g7, g8, g9, g10, g11, g12, g13, g14, g15, g16]
    exact (Cert.GcnGru.Bridge.out_eq _ _ _ _ _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
